-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x1024 : Shape := ⟨2, ![65536, 1024]⟩
abbrev S1024x256 : Shape := ⟨2, ![1024, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x1024 : S_.BroadcastsInDim S65536x1024 (![] : Fin 0 → Fin S65536x1024.rank)
  reducesTo_S65536x1024_S_d0_1 : S65536x1024.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S65536x256 .f32) (main_arg1 : FVec F S65536x1024 .f32) (main_arg2 : FVec F S1024x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  main_v13
-- ==== Kernel.lean ====
abbrev S65536x256 : Shape := ⟨2, ![65536, 256]⟩
abbrev S65536x1024 : Shape := ⟨2, ![65536, 1024]⟩
abbrev S1024x256 : Shape := ⟨2, ![1024, 256]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S64x8x128 : Shape := ⟨3, ![64, 8, 128]⟩
abbrev S1024x1024 : Shape := ⟨2, ![1024, 1024]⟩
abbrev S1x8x128 : Shape := ⟨3, ![1, 8, 128]⟩
abbrev S256x1024 : Shape := ⟨2, ![256, 1024]⟩
abbrev S1 : Shape := ⟨1, ![1]⟩
abbrev S1x1 : Shape := ⟨2, ![1, 1]⟩
abbrev S8x128 : Shape := ⟨2, ![8, 128]⟩

abbrev nBuf : Space → Nat
  | .hbm => 17
  | .vmem => 10
  | .smem => 0
  | _ => 0

abbrev bufTy : (tb : Table) → Fin (tcTables nBuf tb) → BufTy
  | .hbm, ⟨0, _⟩ => ⟨S65536x256, .f32⟩
  | .hbm, ⟨1, _⟩ => ⟨S65536x1024, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1x1024, .f32⟩
  | .hbm, ⟨8, _⟩ => ⟨S1024x256, .bf16⟩
  | .hbm, ⟨9, _⟩ => ⟨S65536x256, .f32⟩
  | .hbm, ⟨10, _⟩ => ⟨S64x8x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x1024, .f32⟩
  | .local _ .vmem, ⟨3, _⟩ => ⟨S1024x1024, .f32⟩
  | .local _ .vmem, ⟨4, _⟩ => ⟨S1024x256, .bf16⟩
  | .local _ .vmem, ⟨5, _⟩ => ⟨S1x1024, .f32⟩
  | .local _ .vmem, ⟨6, _⟩ => ⟨S1024x256, .f32⟩
  | .local _ .vmem, ⟨7, _⟩ => ⟨S1024x256, .f32⟩
  | .local _ .vmem, ⟨8, _⟩ => ⟨S1x8x128, .f32⟩
  | .local _ .vmem, ⟨9, _⟩ => ⟨S1x8x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S1024x256_S1024_d1 : S1024x256.ReducesTo [1] S1024
  h_S_ : 0 < S_.numel
  bcast_S1024_S1024x1_0 : S1024.BroadcastsInDim S1024x1 (![0] : Fin 1 → Fin S1024x1.rank)
  shapeCasts_S1024x1_S1x1024 : S1024x1.ShapeCasts S1x1024
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1024x1024_S1024x1024_0_0 : ∀ a, (![0, 0] : Fin 2 → Nat) a + S1024x1024.size a ≤ S1024x1024.size a
  h_S1024x1024 : 0 < S1024x1024.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x256_S1024 : S1024x256.Reduces [1] S1024
  shapeCasts_S1024_S1024x1 : S1024.ShapeCasts S1024x1
  transposes_S1024x256_p1_0_S256x1024 : S1024x256.Transposes [1, 0] S256x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  iota_S8x128_d0_w32 : S8x128.Iotas .tc 32 [0]
  iota_S8x128_d1_w32 : S8x128.Iotas .tc 32 [1]
  natLt_1_32 : 1 < 32
  broadcasts_S1x1_S8x128 : S1x1.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  reducesTo_S64x8x128_S_d0_1_2 : S64x8x128.ReducesTo [0, 1, 2] S_
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S65536x256.size a
  hwx0_4 : ∀ i : grid0.Coords, EltTy.bits .f32 = 32 ∨ (Rect.block (s := S65536x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S64x8x128.size a
  hwx0_5 : ∀ i : grid0.Coords, EltTy.bits .f32 = 32 ∨ (Rect.block (s := S64x8x128) S1x8x128.size (cc0_transform_5 i) (hinb0_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x1024 : Shape := ⟨2, ![65536, 1024]⟩
abbrev S1024x256 : Shape := ⟨2, ![1024, 256]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S256x1024 : Shape := ⟨2, ![256, 1024]⟩

abbrev nBuf : Space → Nat
  | .hbm => 54
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x1024, .f32⟩
  | .hbm, ⟨2, _⟩ => ⟨S1024x256, .f32⟩
  | .hbm, ⟨3, _⟩ => ⟨S65536x256, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S256x1024, .f32⟩
  | .hbm, ⟨15, _⟩ => ⟨S65536x1024, .f32⟩
  | .hbm, ⟨16, _⟩ => ⟨S_, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536, .f32⟩
  | .hbm, ⟨33, _⟩ => ⟨S65536x1, .f32⟩
  | .hbm, ⟨34, _⟩ => ⟨S65536x1024, .f32⟩
  | .hbm, ⟨35, _⟩ => ⟨S65536x1024, .f32⟩
  | .hbm, ⟨36, _⟩ => ⟨S65536x256, .f32⟩
  | .hbm, ⟨37, _⟩ => ⟨S65536x256, .f32⟩
  | .hbm, ⟨38, _⟩ => ⟨S65536x256, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S65536x256, .f32⟩
  | .hbm, ⟨44, _⟩ => ⟨S65536x256, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S65536x256, .f32⟩
  | .hbm, ⟨53, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S1024x256_S1024_d1 : S1024x256.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  transposes_S1024x256_S256x1024_1_0 : S1024x256.Transposes [1, 0] S256x1024
  bcast_S_S65536x1024 : S_.BroadcastsInDim S65536x1024 (![] : Fin 0 → Fin S65536x1024.rank)
  reducesTo_S65536x1024_S65536_d1 : S65536x1024.ReducesTo [1] S65536
  reducesTo_S65536x256_S_d0_1 : S65536x256.ReducesTo [0, 1] S_
  dot_S65536x256_S256x1024_S65536x1024_1_0_0_1_n_n_wf : DotDims.WF S65536x256 S256x1024 S65536x1024 [1] [0] [0] [1] [] []
  dot_S65536x1024_S1024x256_S65536x256_1_0_0_1_n_n_wf : DotDims.WF S65536x1024 S1024x256 S65536x256 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf
def dot_S65536x1024_S1024x256_S65536x256_1_0_0_1_n_n : DotDims S65536x1024 S1024x256 S65536x256 where
  lhsContracting := [1]
  rhsContracting := [0]
  lhsNonContracting := [0]
  rhsNonContracting := [1]
  lhsBatch := []
  rhsBatch := []
  wf := dot_S65536x1024_S1024x256_S65536x256_1_0_0_1_n_n_wf

class Facts : Prop extends Facts₀ where

variable [Facts]
-- ==== Proof.Spec.lean ====
/-
  Soft vector quantisation of one point against a codebook, over the extended reals.

  A point is a row `xr` of 256 coordinates, its log-scale parameters a row `vr` of 1024 numbers, the codebook a table
  `E` of 1024 entries of 256 coordinates each.  With the squared distance
      dist k = |xr|² + |E k|² − 2·⟨xr, E k⟩        and the precision        prec k = exp (−2·vr k),
  entry `k` gets the Gaussian weight  exp (−½·dist k·prec k) / √(prec k), the weights are normalised over `k`, and the
  quantised point is the weighted mean of the codebook entries.

  Two ways of computing it are stated here side by side.  The first (`…K`) moves the division by √(prec k) into the
  exponent — the weight is exp (vr k − ½·dist k·prec k) — and subtracts the row's largest exponent before exponentiating;
  the second (`…R`) divides as written.  They agree on finite inputs because √(exp (−2v)) = exp (−v) and because a
  common factor exp (−shift) cancels in the normalisation; the proofs of that are in another module.  The loss is the
  mean squared distance between the points and their quantisations, taken once with weight 1 and once with weight ¼.
-/
import Idealize.ShloMosaic.PureOps.Ideal
import Idealize.ShloMosaic.Lib.ValueIdx

noncomputable section

open scoped BigOperators

namespace SoftVQ

open Idealize.ShloMosaic

/-- The constants of both computations, as the words that spell them: 2, −2, ½, −½, 5/4, ¼ and the number of
    coordinates of all points together, 65536·256 = 2²⁴. -/
abbrev cTwo : EReal := Ideal.ofBits .f32 0x40000000#32
abbrev cNegTwo : EReal := Ideal.ofBits .f32 0xC0000000#32
abbrev cHalf : EReal := Ideal.ofBits .f32 0x3F000000#32
abbrev cNegHalf : EReal := Ideal.ofBits .f32 0xBF000000#32
abbrev cFiveQuarters : EReal := Ideal.ofBits .f32 0x3FA00000#32
abbrev cQuarter : EReal := Ideal.ofBits .f32 0x3E800000#32
abbrev cCount : EReal := Ideal.ofBits .f32 0x4B800000#32

variable (xr : Fin 256 → EReal) (vr : Fin 1024 → EReal) (E : Fin 1024 → Fin 256 → EReal)

/-- The squared distance from the point to codebook entry `k`, expanded: |xr|² + |E k|² − 2·⟨xr, E k⟩. -/
def dist (k : Fin 1024) : EReal :=
  ((∑ d, xr d * xr d) + (∑ d, E k d * E k d)) - cTwo * (∑ d, xr d * E k d)

/-- The precision of entry `k`: exp (−2·vr k). -/
def prec (k : Fin 1024) : EReal := Ideal.exp (cNegTwo * vr k)

/-! ### First way: the square root moved into the exponent, the row's largest exponent subtracted -/

/-- The exponent of entry `k`: vr k − (½·dist k)·prec k. -/
def expoK (k : Fin 1024) : EReal := vr k - (cHalf * dist xr E k) * prec vr k

/-- The largest exponent of the row. -/
def shiftK : EReal := (Finset.univ : Finset (Fin 1024)).sup fun k => expoK xr vr E k

/-- The shifted weight of entry `k`. -/
def weightK (k : Fin 1024) : EReal := Ideal.exp (expoK xr vr E k - shiftK xr vr E)

/-- The normalised weight of entry `k`. -/
def probK (k : Fin 1024) : EReal := Ideal.div (weightK xr vr E k) (∑ j, weightK xr vr E j)

/-- Coordinate `d` of the quantised point. -/
def quantK (d : Fin 256) : EReal := ∑ k, probK xr vr E k * E k d

/-- The squared error of coordinate `d`. -/
def sqK (d : Fin 256) : EReal := (quantK xr vr E d - xr d) * (quantK xr vr E d - xr d)

/-! ### Second way: the weight divided by the square root of the precision, as written -/

/-- The weight of entry `k`: exp ((−½·dist k)·prec k) / √(prec k). -/
def weightR (k : Fin 1024) : EReal :=
  Ideal.div (Ideal.exp ((cNegHalf * dist xr E k) * prec vr k)) (Ideal.sqrt (prec vr k))

/-- The normalised weight of entry `k`. -/
def probR (k : Fin 1024) : EReal := Ideal.div (weightR xr vr E k) (∑ j, weightR xr vr E j)

/-- Coordinate `d` of the quantised point. -/
def quantR (d : Fin 256) : EReal := ∑ k, probR xr vr E k * E k d

/-- The squared error of coordinate `d`. -/
def sqR (d : Fin 256) : EReal := (quantR xr vr E d - xr d) * (quantR xr vr E d - xr d)

/-- The point plus the difference between its quantisation and itself. -/
def throughR (d : Fin 256) : EReal := xr d + (quantR xr vr E d - xr d)

/-! ### The loss from the total squared error `S` -/

/-- 5/4 of the total, divided by the number of coordinates. -/
def lossK (S : EReal) : EReal := Ideal.div (cFiveQuarters * S) cCount

/-- The mean, plus a quarter of the mean. -/
def lossR (S : EReal) : EReal := Ideal.div S cCount + cQuarter * Ideal.div S cCount

end SoftVQ

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«163527_j87041807220993_2_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«163527_j87041807220993_2_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.KernelRow.lean ====
/-
  One block of the kernel's body, read entry by entry.

  The body receives a block of 1024 points (`x0`, one point per row), the block of their 1024 log-scale parameters each
  (`x1`), the whole codebook (`x2`, 1024 entries of 256 coordinates) and a row holding the squared length of every
  codebook entry (`x3`).  Its stages are named here in the order the body computes them — squared lengths of the points,
  the products point·entry (a matrix product with the codebook transposed), the squared distances, the precisions, the
  exponents, each row's largest exponent, the shifted weights, their row sums, the normalised weights, and the weighted
  means of the codebook entries (a second matrix product) — and each is read at an entry.  Row `r` of the block depends
  on row `r` of `x0` and `x1` only, and on all of `x2` and `x3`: entry (r, d) of the result is coordinate `d` of the soft
  quantisation of point `r`, computed the first way of the specification, and the squared error follows.
  A change of number format is the identity on extended reals, so the narrowed operands of the two products are the
  operands themselves.
-/
import proofs.«163527_j87041807220993_2_alg».proof.Proof.Gen.KernelIdeal.Skeleton
import proofs.«163527_j87041807220993_2_alg».proof.Proof.Spec
import proofs.«163527_j87041807220993_2_alg».proof.Proof.LibHostMax
import proofs.«163527_j87041807220993_2_alg».proof.Proof.LibLaneRows
import proofs.«163527_j87041807220993_2_alg».proof.Proof.LibColumns
import proofs.«163527_j87041807220993_2_alg».proof.Proof.LibDotCols
import Idealize.ShloMosaic.Lib.ValueLayout
import Idealize.ShloMosaic.Lib.Pipeline.Value

noncomputable section

open scoped BigOperators

namespace Cert.KernelIdeal.Row

open Idealize.ShloMosaic Idealize.ShloMosaic.ValueIdx Cert.KernelIdeal Cert.KernelIdeal.Gen

variable (x0 : Vec Ideal S1024x256 .f32) (x1 : Vec Ideal S1024x1024 .f32) (x2 : Vec Ideal S1024x256 .bf16)
  (x3 : Vec Ideal S1x1024 .f32)

/-! ### The stages -/

/-- The squared length of every point of the block. -/
def xsq : FVec Ideal S1024 .f32 :=
  multiReduction .add [1] S1024 (mulf x0 x0) 0x00000000#32 reduces_S1024x256_S1024 (.inl rfl) rfl

/-- The products point·entry: the block times the transposed codebook. -/
def dots : FVec Ideal S1024x1024 .f32 :=
  matmul dot_S1024x256_S256x1024_S1024x1024_1_0_0_1_n_n none (truncf .bf16 x0 bitsLt_bf16_f32)
    (transpose S256x1024 [1, 0] (shapeCast S1024x256 x2 shapeCasts_S1024x256_S1024x256 : FVec Ideal S1024x256 .bf16)
      transposes_S1024x256_p1_0_S256x1024 : FVec Ideal S256x1024 .bf16)
    (constant S1024x1024 .f32 0x00000000#32)

/-- The squared distances. -/
def dists : FVec Ideal S1024x1024 .f32 :=
  subf (addf (broadcastTo S1024x1024 (shapeCast S1024x1 (xsq x0) shapeCasts_S1024_S1024x1) broadcasts_S1024x1_S1024x1024)
      (broadcastTo S1024x1024 (shapeCast S1x1024 x3 shapeCasts_S1x1024_S1x1024) broadcasts_S1x1024_S1024x1024))
    (mulf (broadcast S1024x1024 (Scalar.ofBits .f32 0x40000000#32)) (dots x0 x2))

/-- The precisions. -/
def precs : FVec Ideal S1024x1024 .f32 :=
  exp (mulf (broadcast S1024x1024 (Scalar.ofBits .f32 0xC0000000#32)) x1)

/-- The exponents. -/
def expos : FVec Ideal S1024x1024 .f32 :=
  subf x1 (mulf (mulf (broadcast S1024x1024 (Scalar.ofBits .f32 0x3F000000#32)) (dists x0 x2 x3)) (precs x1))

/-- Each row's largest exponent. -/
def shifts : FVec Ideal S1024 .f32 :=
  multiReduction .maximumf [1] S1024 (expos x0 x1 x2 x3) 0xFF800000#32 reduces_S1024x1024_S1024 (.inl rfl) rfl

/-- The shifted weights. -/
def weights : FVec Ideal S1024x1024 .f32 :=
  exp (subf (expos x0 x1 x2 x3)
    (broadcastTo S1024x1024 (shapeCast S1024x1 (shifts x0 x1 x2 x3) shapeCasts_S1024_S1024x1) broadcasts_S1024x1_S1024x1024))

/-- The row sums of the weights. -/
def norms : FVec Ideal S1024 .f32 :=
  multiReduction .add [1] S1024 (weights x0 x1 x2 x3) 0x00000000#32 reduces_S1024x1024_S1024 (.inl rfl) rfl

/-- The normalised weights. -/
def probs : FVec Ideal S1024x1024 .f32 :=
  divf (weights x0 x1 x2 x3)
    (broadcastTo S1024x1024 (shapeCast S1024x1 (norms x0 x1 x2 x3) shapeCasts_S1024_S1024x1) broadcasts_S1024x1_S1024x1024)

/-- The weighted means of the codebook entries. -/
def quants : FVec Ideal S1024x256 .f32 :=
  matmul dot_S1024x1024_S1024x256_S1024x256_1_0_0_1_n_n none (truncf .bf16 (probs x0 x1 x2 x3) bitsLt_bf16_f32)
    (shapeCast S1024x256 x2 shapeCasts_S1024x256_S1024x256 : FVec Ideal S1024x256 .bf16) (constant S1024x256 .f32 0x00000000#32)

/-- The body's stored value is the last stage. -/
theorem pay2_eq : k0_pay2 (F := Ideal) x0 x1 x2 x3 = quants x0 x1 x2 x3 := rfl

/-- The squared error the body hands on is the square of the difference between the last stage and the block. -/
theorem pay3_eq : k0_pay3 (F := Ideal) x0 x1 x2 x3 = mulf (subf (quants x0 x1 x2 x3) x0) (subf (quants x0 x1 x2 x3) x0) := rfl

/-! ### The two products' dimension numbers are the plain ones -/

theorem dims_dots : dot_S1024x256_S256x1024_S1024x1024_1_0_0_1_n_n = DotDims.plain 1024 256 1024 := rfl
theorem dims_quants : dot_S1024x1024_S1024x256_S1024x256_1_0_0_1_n_n = DotDims.plain 1024 1024 256 := rfl

/-! ### The stages at an entry -/

/-- Row `r` of the block of points, of the block of parameters, and the codebook as a table. -/
abbrev rowX (r : Fin 1024) : Fin 256 → EReal := fun d => x0 (ix2 r d)
abbrev rowV (r : Fin 1024) : Fin 1024 → EReal := fun k => x1 (ix2 r k)
abbrev tabE : Fin 1024 → Fin 256 → EReal := fun k d => x2 (ix2 k d)

theorem xsq_apply (r : Fin 1024) : xsq x0 (ix1 r) = ∑ d : Fin 256, x0 (ix2 r d) * x0 (ix2 r d) := by
  unfold xsq
  exact LaneRows.multiReduction_add_rows (mulf x0 x0) _ reduces_S1024x256_S1024 (.inl rfl) rfl r

theorem dots_apply (r k : Fin 1024) : dots x0 x2 (ix2 r k) = ∑ d : Fin 256, x0 (ix2 r d) * x2 (ix2 k d) := by
  unfold dots
  refine (Cert.Lib.DotCols.matmul_cols_apply _ dims_dots none _ _ r k).trans ?_
  refine Finset.sum_congr rfl fun d _ => ?_
  rw [transpose_ix2_apply, shapeCast_self]
  rfl

variable (hx3 : ∀ k : Fin 1024, x3 (ix2 (0 : Fin 1) k) = ∑ d : Fin 256, x2 (ix2 k d) * x2 (ix2 k d))

include hx3 in
theorem dists_apply (r k : Fin 1024) : dists x0 x2 x3 (ix2 r k) = SoftVQ.dist (rowX x0 r) (tabE x2) k := by
  unfold dists SoftVQ.dist
  rw [subf_apply, addf_apply, mulf_apply, broadcast_apply, broadcastTo_a1_ab_apply, shapeCast_a_a1_apply, xsq_apply,
    shapeCast_self, broadcastTo_1b_ab_apply, hx3, dots_apply]
  rfl

theorem precs_apply (r k : Fin 1024) : precs x1 (ix2 r k) = SoftVQ.prec (rowV x1 r) k := rfl

include hx3 in
theorem expos_apply (r k : Fin 1024) :
    expos x0 x1 x2 x3 (ix2 r k) = SoftVQ.expoK (rowX x0 r) (rowV x1 r) (tabE x2) k := by
  unfold expos SoftVQ.expoK
  rw [subf_apply, mulf_apply, mulf_apply, broadcast_apply, dists_apply x0 x2 x3 hx3, precs_apply]
  rfl

include hx3 in
theorem shifts_apply (r : Fin 1024) :
    shifts x0 x1 x2 x3 (ix1 r) = SoftVQ.shiftK (rowX x0 r) (rowV x1 r) (tabE x2) := by
  unfold shifts SoftVQ.shiftK
  refine (HostMax.multiReduction_rows _ reduces_S1024x1024_S1024 (.inl rfl) rfl r).trans ?_
  exact congrArg (fun f => (Finset.univ : Finset (Fin 1024)).sup f) (funext fun k => expos_apply x0 x1 x2 x3 hx3 r k)

include hx3 in
theorem weights_apply (r k : Fin 1024) :
    weights x0 x1 x2 x3 (ix2 r k) = SoftVQ.weightK (rowX x0 r) (rowV x1 r) (tabE x2) k := by
  unfold weights SoftVQ.weightK
  show Ideal.exp (expos x0 x1 x2 x3 (ix2 r k) - broadcastTo S1024x1024 _ broadcasts_S1024x1_S1024x1024 (ix2 r k)) = _
  rw [expos_apply x0 x1 x2 x3 hx3, broadcastTo_a1_ab_apply, shapeCast_a_a1_apply, shifts_apply x0 x1 x2 x3 hx3]

include hx3 in
theorem norms_apply (r : Fin 1024) :
    norms x0 x1 x2 x3 (ix1 r) = ∑ j : Fin 1024, SoftVQ.weightK (rowX x0 r) (rowV x1 r) (tabE x2) j := by
  unfold norms
  refine (LaneRows.multiReduction_add_rows _ _ reduces_S1024x1024_S1024 (.inl rfl) rfl r).trans ?_
  exact Finset.sum_congr rfl fun j _ => weights_apply x0 x1 x2 x3 hx3 r j

include hx3 in
theorem probs_apply (r k : Fin 1024) :
    probs x0 x1 x2 x3 (ix2 r k) = SoftVQ.probK (rowX x0 r) (rowV x1 r) (tabE x2) k := by
  unfold probs SoftVQ.probK
  rw [divf_apply, weights_apply x0 x1 x2 x3 hx3, broadcastTo_a1_ab_apply, shapeCast_a_a1_apply, norms_apply x0 x1 x2 x3 hx3]

include hx3 in
theorem quants_apply (r : Fin 1024) (d : Fin 256) :
    quants x0 x1 x2 x3 (ix2 r d) = SoftVQ.quantK (rowX x0 r) (rowV x1 r) (tabE x2) d := by
  unfold quants SoftVQ.quantK
  refine (Cert.Lib.DotCols.matmul_cols_apply _ dims_quants none _ _ r d).trans ?_
  refine Finset.sum_congr rfl fun k _ => ?_
  rw [shapeCast_self, truncf_apply, probs_apply x0 x1 x2 x3 hx3]

/-! ### The body's two values at an entry -/

include hx3 in
/-- Entry (r, d) of the stored block: coordinate `d` of the soft quantisation of point `r`. -/
theorem pay2_apply (r : Fin 1024) (d : Fin 256) :
    k0_pay2 (F := Ideal) x0 x1 x2 x3 (ix2 r d) = SoftVQ.quantK (rowX x0 r) (rowV x1 r) (tabE x2) d := by
  rw [pay2_eq]; exact quants_apply x0 x1 x2 x3 hx3 r d

include hx3 in
/-- Entry (r, d) of the squared errors. -/
theorem pay3_apply (r : Fin 1024) (d : Fin 256) :
    k0_pay3 (F := Ideal) x0 x1 x2 x3 (ix2 r d) = SoftVQ.sqK (rowX x0 r) (rowV x1 r) (tabE x2) d := by
  rw [pay3_eq]
  unfold SoftVQ.sqK
  rw [mulf_apply, subf_apply, quants_apply x0 x1 x2 x3 hx3]

end Cert.KernelIdeal.Row

end
-- ==== Proof.Finite.lean ====
/-
  Two facts about the extended reals the soft vector quantisation is stated over.

  First: the precondition — every coordinate of the points, of the log-scale parameters and of the codebook has an
  absolute value below +∞ — makes every one of them a real number: an extended real whose absolute value
  max x (−x) is below ⊤ is neither ⊤ nor ⊥.

  Second: the tile the loss is written to carries the total of the squared errors at its corner (0, 0) and zero
  elsewhere, so the sum over the tile is that total.
-/
import proofs.«163527_j87041807220993_2_alg».proof.Pre_finite_inputs
import Idealize.ShloMosaic.Lib.ReduceAll
import Idealize.ShloMosaic.Lib.ValueIdx
import Idealize.ShloMosaic.PureOps.Ideal
import Idealize.ShloMosaic.PureOps.Ideal.Laws
import Idealize.ShloMosaic.Lib.Pipeline.Value
import proofs.«163527_j87041807220993_2_alg».proof.Proof.Gen.KernelIdeal.Skeleton
import proofs.«163527_j87041807220993_2_alg».proof.Proof.LibLaneRows
import proofs.«163527_j87041807220993_2_alg».proof.Proof.LibColumns
import proofs.«163527_j87041807220993_2_alg».proof.Proof.LibHostMax

noncomputable section

open scoped BigOperators

namespace Cert.Finite

open Idealize.ShloMosaic
open Cert.Pre_finite_inputs

/-- The shape with no axes has one index. -/
instance : Subsingleton S_.Idx := ⟨fun a b => funext fun d => d.elim0⟩

/-- The word 0x7F800000 spells +∞. -/
theorem inf_word : Ideal.ofBits .f32 0x7F800000#32 = (⊤ : EReal) := by
  simp [Ideal.ofBits, Ideal.ieee]

/-- An extended real whose absolute value max x (−x) is below ⊤ is a real number: ⊤ and ⊥ both have absolute value ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The element test |x| < +∞ as the precondition spells it, answered 1, makes x a real number. -/
theorem real_of_test (x : EReal)
    (h : Ideal.cmp .olt (max x (-x)) (Ideal.ofBits .f32 0x7F800000#32) = 1#1) : ∃ r : ℝ, x = (r : EReal) := by
  rw [inf_word] at h
  refine real_of_abs_lt_top x ?_
  unfold Ideal.cmp at h
  by_contra hn
  simp [hn] at h

variable [Cert.Pre_finite_inputs.Facts]

/-- The precondition, answered 1, makes every coordinate of the three inputs a real number: the conjunction of the three
    tests splits, each test over all coordinates holds at every coordinate, and a coordinate whose absolute value is
    below +∞ is real. -/
theorem reals_of_pre (x : FVec Ideal S65536x256 .f32) (var : FVec Ideal S65536x1024 .f32) (emb : FVec Ideal S1024x256 .f32)
    (h : Cert.Pre_finite_inputs.fn (F := Ideal) x var emb = fun _ => 1#1) :
    (∀ i, ∃ r : ℝ, x i = (r : EReal)) ∧ (∀ i, ∃ r : ℝ, var i = (r : EReal)) ∧ (∀ i, ∃ r : ℝ, emb i = (r : EReal)) := by
  have e := congrFun h ValueIdx.ix0
  unfold Cert.Pre_finite_inputs.fn at e
  dsimp only [andi] at e
  obtain ⟨h12, h3⟩ := IntOp.andi_eq_one.1 e
  obtain ⟨h1, h2⟩ := IntOp.andi_eq_one.1 h12
  refine ⟨fun i => ?_, fun i => ?_, fun i => ?_⟩
  · exact real_of_test _ (Host.reduce_andi_all _ _ _ _ _ h1 i)
  · exact real_of_test _ (Host.reduce_andi_all _ _ _ _ _ h2 i)
  · exact real_of_test _ (Host.reduce_andi_all _ _ _ _ _ h3 i)

end Cert.Finite

namespace Cert.KernelIdeal.LossTile

open Idealize.ShloMosaic Idealize.ShloMosaic.ValueIdx

/-- Column `c` of an [n, w] array with coordinate `k` put back on the reduced (first) axis is (k, c). -/
theorem lift_cols {n w : ℕ} (h : (⟨2, ![n, w]⟩ : Shape).Reduces [0] (⟨1, ![w]⟩ : Shape)) (c : Fin w)
    (k : Fin ((⟨2, ![n, w]⟩ : Shape).size 0)) : h.lift (ix1 c) k = ix2 (⟨k.val, k.isLt⟩ : Fin n) c := by
  funext a; apply Fin.ext
  fin_cases a <;> rfl

/-- From the neutral accumulator, a sum over the first axis of an [n, w] vector, at column `c`, is the sum of the column. -/
theorem multiReduction_add_cols {n w : ℕ} (P : FVec Ideal ⟨2, ![n, w]⟩ .f32) (acc : BitVec FTy.f32.bits)
    (h : (⟨2, ![n, w]⟩ : Shape).Reduces [0] (⟨1, ![w]⟩ : Shape)) (hφ : FKind.Formats .f32)
    (hacc : acc = FKind.add.neutral .f32 hφ) (c : Fin w) :
    multiReduction (F := Ideal) .add [0] (⟨1, ![w]⟩ : Shape) P acc h hφ hacc (ix1 c) = ∑ k : Fin n, P (ix2 k c) := by
  refine (Ideal.multiReduction_add_single (φ := .f32) P acc h hφ hacc (ix1 c)).trans ?_
  have hf : (P ∘ h.lift (ix1 c)) = fun k : Fin n => P (ix2 k c) :=
    funext fun k => congrArg P (lift_cols h c k)
  exact congrArg (fun f => ∑ k : Fin n, f k) hf

/-- A number below 2³², as a 32-bit word, is the zero word exactly when it is zero. -/
theorem ofNat32_eq_zero (n : ℕ) (hn : n < 2 ^ 32) : BitVec.ofNat 32 n = 0#32 ↔ n = 0 := by
  constructor
  · intro h
    have e := congrArg BitVec.toNat h
    rw [BitVec.toNat_ofNat, Nat.mod_eq_of_lt hn] at e
    exact e
  · rintro rfl; rfl

/-- A one-bit word widened to 32 bits and read as a signed integer is 1 for the word 1 and 0 for the word 0. -/
theorem setWidth_toInt : ∀ m : BitVec 1, (m.setWidth 32).toInt = if m = 1#1 then 1 else 0 := by decide

/-- The mask of the tile: 1 at the corner (0, 0), 0 elsewhere.  Row and column numbers are compared with zero, the two
    answers and-ed, the bit widened and read as a number. -/
theorem mask_apply (h0 : S8x128.Iotas .tc 32 [0]) (h1 : S8x128.Iotas .tc 32 [1]) (hlt : 1 < 32) (i : Fin 8) (j : Fin 128) :
    (sitofp (F := Ideal) .f32 (extui 32 (andi (cmpi .eq (iota .tc S8x128 32 [0] h0) (broadcast S8x128 0#32))
        (cmpi .eq (iota .tc S8x128 32 [1] h1) (broadcast S8x128 0#32))) hlt) : FVec Ideal S8x128 .f32) (ix2 i j)
      = if i.val = 0 ∧ j.val = 0 then (1 : EReal) else 0 := by
  have e0 : iota .tc S8x128 32 [0] h0 (ix2 i j) = BitVec.ofNat 32 i.val := iota_single_apply .tc S8x128 32 0 h0 (ix2 i j)
  have e1 : iota .tc S8x128 32 [1] h1 (ix2 i j) = BitVec.ofNat 32 j.val := iota_single_apply .tc S8x128 32 1 h1 (ix2 i j)
  show ((((IntOp.andi (IntOp.cmpi .eq (iota .tc S8x128 32 [0] h0 (ix2 i j)) 0#32)
      (IntOp.cmpi .eq (iota .tc S8x128 32 [1] h1 (ix2 i j)) 0#32)).setWidth 32).toInt : ℝ) : EReal) = _
  rw [e0, e1, setWidth_toInt]
  have hi : i.val < 2 ^ 32 := by have := i.isLt; omega
  have hj : j.val < 2 ^ 32 := by have := j.isLt; omega
  have hm : IntOp.andi (IntOp.cmpi .eq (BitVec.ofNat 32 i.val) 0#32) (IntOp.cmpi .eq (BitVec.ofNat 32 j.val) 0#32) = 1#1
      ↔ i.val = 0 ∧ j.val = 0 := by
    rw [IntOp.andi_eq_one, IntOp.cmpi_eq, IntOp.cmpi_eq, ofNat32_eq_zero _ hi, ofNat32_eq_zero _ hj]
  by_cases hc : i.val = 0 ∧ j.val = 0
  · rw [if_pos (hm.2 hc), if_pos hc]; simp
  · rw [if_neg (fun h => hc (hm.1 h)), if_neg hc]; simp

/-- The tile at (0, i, j): the mask at (i, j) times the total of the array, summed over its columns and then its rows. -/
theorem pay1_apply (v38 : FVec Ideal S1024x256 .f32) (i : Fin 8) (j : Fin 128) :
    Cert.KernelIdeal.Gen.k0_pay1 (F := Ideal) v38 (ValueIdx.ix3 (0 : Fin 1) i j)
      = (if i.val = 0 ∧ j.val = 0 then (1 : EReal) else 0) * ∑ r : Fin 1024, ∑ d : Fin 256, v38 (ValueIdx.ix2 r d) := by
  unfold Cert.KernelIdeal.Gen.k0_pay1
  -- the [1, 8, 128] view at (0, i, j) is the [8, 128] tile at (i, j)
  refine (shapeCast_apply _ _ (ix3 (0 : Fin 1) i j) (ix2 i j) ?_).trans ?_
  · rw [Shape.rowMajor_val_two, Shape.rowMajor_val_three]
    show i.val * 128 + j.val = (0 * 8 + i.val) * 128 + j.val
    omega
  refine (mulf_apply _ _ (ix2 i j)).trans ?_
  refine congrArg₂ (· * ·) (mask_apply _ _ _ i j) ?_
  -- the [1, 1] total spread over the tile is its one entry
  refine (broadcastTo_apply _ _ (ix2 i j) (ix2 (0 : Fin 1) (0 : Fin 1)) (fun a => ?_)).trans ?_
  · match a with
    | ⟨0, _⟩ => rfl
    | ⟨1, _⟩ => rfl
  refine (shapeCast_a_a1_apply _ _ (0 : Fin 1) (0 : Fin 1)).trans ?_
  -- the sum over the rows of the column of row sums
  refine (multiReduction_add_cols _ _ _ _ _ (0 : Fin 1)).trans ?_
  refine Finset.sum_congr rfl fun r _ => ?_
  refine (shapeCast_a_a1_apply _ _ r (0 : Fin 1)).trans ?_
  exact LaneRows.multiReduction_add_rows _ _ _ _ _ r

/-- The sum over the tile is the total: every entry but the corner is zero times the total, which is zero, and the corner
    is one times the total. -/
theorem pay1_sum (v38 : FVec Ideal S1024x256 .f32) :
    (∑ i : Fin 8, ∑ j : Fin 128, Cert.KernelIdeal.Gen.k0_pay1 (F := Ideal) v38 (ValueIdx.ix3 (0 : Fin 1) i j))
      = ∑ r : Fin 1024, ∑ d : Fin 256, v38 (ValueIdx.ix2 r d) := by
  simp only [pay1_apply]
  rw [Finset.sum_eq_single (0 : Fin 8), Finset.sum_eq_single (0 : Fin 128)]
  · simp
  · intro j _ hj
    have : j.val ≠ 0 := fun h => hj (Fin.ext h)
    simp [this]
  · intro h; exact absurd (Finset.mem_univ _) h
  · intro i _ hi
    have : i.val ≠ 0 := fun h => hi (Fin.ext h)
    refine Finset.sum_eq_zero fun j _ => ?_
    simp [this]
  · intro h; exact absurd (Finset.mem_univ _) h

end Cert.KernelIdeal.LossTile

end
-- ==== Proof.Whole.lean ====
/-
  The two arrays the kernel's region leaves, as functions of the three argument arrays.

  The quantised array holds, at (b, d), coordinate `d` of the soft quantisation of point `b` (row `b` of the points and of
  the log-scale parameters, the whole codebook), computed the first way of the specification.  The array of loss tiles
  has one 8×128 tile per block of 1024 consecutive points: tile `t` is zero except at its corner (0, 0), which holds the
  total squared error of the points 1024·t … 1024·t + 1023.
-/
import proofs.«163527_j87041807220993_2_alg».proof.Proof.Spec

noncomputable section

open scoped BigOperators

namespace SoftVQ

open Idealize.ShloMosaic Idealize.ShloMosaic.ValueIdx

/-- Row `b` of the points, row `b` of the log-scale parameters, and the codebook as a table. -/
abbrev rowX (X : (⟨2, ![65536, 256]⟩ : Shape).Idx → EReal) (b : Fin 65536) : Fin 256 → EReal := fun d => X (ix2 b d)
abbrev rowV (VAR : (⟨2, ![65536, 1024]⟩ : Shape).Idx → EReal) (b : Fin 65536) : Fin 1024 → EReal := fun k => VAR (ix2 b k)
abbrev tab (EMB : (⟨2, ![1024, 256]⟩ : Shape).Idx → EReal) : Fin 1024 → Fin 256 → EReal := fun k d => EMB (ix2 k d)

variable (X : (⟨2, ![65536, 256]⟩ : Shape).Idx → EReal) (VAR : (⟨2, ![65536, 1024]⟩ : Shape).Idx → EReal)
  (EMB : (⟨2, ![1024, 256]⟩ : Shape).Idx → EReal)

/-- The quantised array. -/
def wholeQuant : (⟨2, ![65536, 256]⟩ : Shape).Idx → EReal :=
  fun j => quantK (rowX X (j 0)) (rowV VAR (j 0)) (tab EMB) (j 1)

/-- Point `r` of block `t`: the point 1024·t + r. -/
def pt (t : Fin 64) (r : Fin 1024) : Fin 65536 :=
  ⟨t.val * 1024 + r.val, by have := t.isLt; have := r.isLt; omega⟩

/-- The total squared error of block `t`. -/
def blockErr (t : Fin 64) : EReal :=
  ∑ r : Fin 1024, ∑ d : Fin 256, sqK (rowX X (pt t r)) (rowV VAR (pt t r)) (tab EMB) d

/-- The array of loss tiles. -/
def wholeTiles : (⟨3, ![64, 8, 128]⟩ : Shape).Idx → EReal :=
  fun j => (if (j 1).val = 0 ∧ (j 2).val = 0 then (1 : EReal) else 0) * blockErr X VAR EMB (j 0)

end SoftVQ

end
-- ==== Proof.KernelWhole.lean ====
/-
  From the kernel's blocks to its two result arrays.

  The grid has 64 points; point `t` works on the 1024 points 1024·t … 1024·t + 1023: it is handed rows
  1024·t … 1024·t + 1023 of the points and of the log-scale parameters, the whole codebook, and the whole row of the codebook
  entries' squared lengths (which the program computes before the region: the codebook squared entry by entry and summed
  along each entry, then laid out as one row); it writes back rows 1024·t … 1024·t + 1023 of the quantised array and tile
  `t` of the loss tiles.  The blocks written back tile both arrays, so after the last point each array is, everywhere,
  the whole-array function whose restriction to a block is what that block's point wrote.
-/
import proofs.«163527_j87041807220993_2_alg».proof.Proof.Gen.KernelIdeal.Frame
import proofs.«163527_j87041807220993_2_alg».proof.Proof.KernelRow
import proofs.«163527_j87041807220993_2_alg».proof.Proof.Finite
import proofs.«163527_j87041807220993_2_alg».proof.Proof.Whole
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open scoped BigOperators

namespace Cert.KernelIdeal.Whole

open Idealize.ShloMosaic Idealize.ShloMosaic.TcCoe Idealize.SL.Sem Idealize.ShloMosaic.ValueIdx
open Idealize.ShloMosaic.StableHlo
open Cert.KernelIdeal Cert.KernelIdeal.Gen
open Idealize.ShloMosaic.Pipeline (Dat)

variable (m : (ℓ : Loc nD τ sig) → Buf (Elt Ideal) ℓ) (ρ : Dev nD → PrngReg)

/-- The three argument arrays on core `c`, as arrays of extended reals. -/
abbrev argX (c : Dev nD) : S65536x256.Idx → EReal := m ((c : Thread nD τ).loc main_arg0)
abbrev argV (c : Dev nD) : S65536x1024.Idx → EReal := m ((c : Thread nD τ).loc main_arg1)
abbrev argE (c : Dev nD) : S1024x256.Idx → EReal := m ((c : Thread nD τ).loc main_arg2)

/-- A grid point as a number below 64. -/
abbrev tOf (t : Fin cfg0.N) : Fin 64 := t.cast N_0

/-- The block index of every window at every grid point: the two blocked inputs and the two outputs follow the point
    along their first axis, the codebook and the row of squared lengths stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem hz2 : (![0, 0] : Fin 2 → Nat) = fun _ => 0 := funext fun a => by fin_cases a <;> rfl
theorem hz3 : (![0, 0, 0] : Fin 3 → Nat) = fun _ => 0 := funext fun a => by fin_cases a <;> rfl

/-! ### The arrays the program computes before the region -/

/-- The narrowed codebook is the codebook. -/
theorem V_v4 (c : Dev nD) : (V m c main_v4 : S1024x256.Idx → EReal) = argE m c := by
  show StableHlo.after hostOps0 (fun b => m (c, b)) (Proc.devRef .tc main_v4) = _
  after_results
  rfl

/-- The row of squared lengths: the codebook squared entry by entry, summed along each entry from zero, set as a column
    and re-laid as one row. -/
theorem V_v3 (c : Dev nD) (k : Fin 1024) : (V m c main_v3 : S1x1024.Idx → EReal) (ix2 (0 : Fin 1) k)
    = ∑ d : Fin 256, argE m c (ix2 k d) * argE m c (ix2 k d) := by
  show (StableHlo.after hostOps0 (fun b => m (c, b)) (Proc.devRef .tc main_v3) : S1x1024.Idx → EReal) _ = _
  after_results
  show shapeCast S1x1024 (broadcastInDim S1024x1 ![0] bcast_S1024_S1024x1_0
      (Host.reduceAdd (F := Ideal) (mulf (argE m c) (argE m c)) (constant S_ .f32 0x00000000#32) reducesTo_S1024x256_S1024_d1 h_S_))
      shapeCasts_S1024x1_S1x1024 (ix2 (0 : Fin 1) k) = _
  refine (shapeCast_apply _ shapeCasts_S1024x1_S1x1024 (ix2 (0 : Fin 1) k) (ix2 k (0 : Fin 1)) (by
    rw [Shape.rowMajor_val_two, Shape.rowMajor_val_two]; show k.val * 1 + 0 = 0 * 1024 + k.val; omega)).trans ?_
  refine (broadcastInDim_apply _ bcast_S1024_S1024x1_0 _ (ix2 k (0 : Fin 1)) (ix1 k) (fun a => match a with
    | ⟨0, _⟩ => by show k.val = if (1024 : Nat) = 1 then 0 else k.val; rw [if_neg (by decide)])).trans ?_
  simp only [Host.reduceAdd, Ideal.hostReduceAdd_def]
  rw [Ideal.hostReduceAdd_single reducesTo_S1024x256_S1024_d1 reduces_S1024x256_S1024]
  show Ideal.ofBits .f32 0x00000000#32 + _ = _
  rw [Ideal.ofBits_zero_f32, zero_add]
  refine Finset.sum_congr rfl fun d _ => ?_
  rw [HostMax.lift_rows]
  rfl

/-! ### The input blocks at a point -/

/-- The four input blocks at point `t`, as arrays of extended reals. -/
abbrev b0 (c : Dev nD) (t : Fin cfg0.N) : Vec Ideal S1024x256 .f32 := iblk m c 0 t
abbrev b1 (c : Dev nD) (t : Fin cfg0.N) : Vec Ideal S1024x1024 .f32 := iblk m c 1 t
abbrev b2 (c : Dev nD) (t : Fin cfg0.N) : Vec Ideal S1024x256 .bf16 := iblk m c 2 t
abbrev b3 (c : Dev nD) (t : Fin cfg0.N) : Vec Ideal S1x1024 .f32 := iblk m c 3 t

theorem blk0 (c : Dev nD) (t : Fin cfg0.N) (r : Fin 1024) (d : Fin 256) :
    b0 m c t (ix2 r d) = argX m c (ix2 (SoftVQ.pt (tOf t) r) d) := by
  obtain ⟨e0, e1, -⟩ := idx_facts t
  unfold b0 iblk
  rw [View.read_apply]
  show V m c main_arg0 _ = _
  rw [V_main_arg0]
  refine congrArg (argX m c) ?_
  funext a; apply Fin.ext
  match a with
  | ⟨0, _⟩ => show win0_0.index t (0 : Fin 2) * 1024 + 1 * r.val = t.val * 1024 + r.val; rw [e0]; omega
  | ⟨1, _⟩ => show win0_0.index t (1 : Fin 2) * 256 + 1 * d.val = d.val; rw [e1]; omega

theorem blk1 (c : Dev nD) (t : Fin cfg0.N) (r : Fin 1024) (k : Fin 1024) :
    b1 m c t (ix2 r k) = argV m c (ix2 (SoftVQ.pt (tOf t) r) k) := by
  obtain ⟨-, -, e0, e1, -⟩ := idx_facts t
  unfold b1 iblk
  rw [View.read_apply]
  show V m c main_arg1 _ = _
  rw [V_main_arg1]
  refine congrArg (argV m c) ?_
  funext a; apply Fin.ext
  match a with
  | ⟨0, _⟩ => show win0_1.index t (0 : Fin 2) * 1024 + 1 * r.val = t.val * 1024 + r.val; rw [e0]; omega
  | ⟨1, _⟩ => show win0_1.index t (1 : Fin 2) * 1024 + 1 * k.val = k.val; rw [e1]; omega

theorem blk2 (c : Dev nD) (t : Fin cfg0.N) (k : Fin 1024) (d : Fin 256) :
    b2 m c t (ix2 k d) = argE m c (ix2 k d) := by
  obtain ⟨-, -, -, -, e0, e1, -⟩ := idx_facts t
  unfold b2 iblk
  rw [View.read_apply]
  show (V m c main_v4 : S1024x256.Idx → EReal) _ = _
  rw [V_v4]
  refine congrArg (argE m c) ?_
  funext a; apply Fin.ext
  match a with
  | ⟨0, _⟩ => show win0_2.index t (0 : Fin 2) * 1024 + 1 * k.val = k.val; rw [e0]; omega
  | ⟨1, _⟩ => show win0_2.index t (1 : Fin 2) * 256 + 1 * d.val = d.val; rw [e1]; omega

theorem blk3 (c : Dev nD) (t : Fin cfg0.N) (k : Fin 1024) :
    b3 m c t (ix2 (0 : Fin 1) k) = ∑ d : Fin 256, argE m c (ix2 k d) * argE m c (ix2 k d) := by
  obtain ⟨-, -, -, -, -, -, e0, e1, -⟩ := idx_facts t
  unfold b3 iblk
  rw [View.read_apply]
  show (V m c main_v3 : S1x1024.Idx → EReal) _ = _
  refine Eq.trans (congrArg (V m c main_v3 : S1x1024.Idx → EReal) ?_) (V_v3 m c k)
  funext a; apply Fin.ext
  match a with
  | ⟨0, _⟩ => show win0_3.index t (0 : Fin 2) * 1 + 1 * 0 = 0; rw [e0]
  | ⟨1, _⟩ => show win0_3.index t (1 : Fin 2) * 1024 + 1 * k.val = k.val; rw [e1]; omega

/-- At every point the row of squared lengths the body is handed is that of the codebook it is handed. -/
theorem hx3 (c : Dev nD) (t : Fin cfg0.N) (k : Fin 1024) :
    b3 m c t (ix2 (0 : Fin 1) k) = ∑ d : Fin 256, b2 m c t (ix2 k d) * b2 m c t (ix2 k d) := by
  rw [blk3]
  exact Finset.sum_congr rfl fun d _ => by rw [blk2]

/-- Row `r` of the blocks at point `t` is row 1024·t + r of the arguments; the codebook block is the codebook. -/
theorem rowX_eq (c : Dev nD) (t : Fin cfg0.N) (r : Fin 1024) :
    Row.rowX (b0 m c t) r = SoftVQ.rowX (argX m c) (SoftVQ.pt (tOf t) r) := funext fun d => blk0 m c t r d
theorem rowV_eq (c : Dev nD) (t : Fin cfg0.N) (r : Fin 1024) :
    Row.rowV (b1 m c t) r = SoftVQ.rowV (argV m c) (SoftVQ.pt (tOf t) r) := funext fun k => blk1 m c t r k
theorem tab_eq (c : Dev nD) (t : Fin cfg0.N) :
    Row.tabE (b2 m c t) = SoftVQ.tab (argE m c) := funext fun k => funext fun d => blk2 m c t k d

/-! ### What each point writes back -/

/-- Point `t` writes back block `t` of the quantised array. -/
theorem flushed4_eq (c : Dev nD) (t : Fin cfg0.N) :
    (dats m 0 c).flushed 4 t
      = ((cfg0.win 4).blk t).view.read (Elt Ideal) (SoftVQ.wholeQuant (argX m c) (argV m c) (argE m c)) := by
  show (cfg0.win 4).cut (grid0.coords t) ((dats m 0 c).after 4 t) = _
  rw [after0_4]
  unfold out0_4
  rw [View.canon_unit_zero hz2]
  simp only [View.ld_unit_zero (S := S1024x256) hz2, View.ld_unit_zero (S := S1024x1024) hz2, View.ld_unit_zero (S := S1x1024) hz2]
  obtain ⟨-, -, -, -, -, -, -, -, e0, e1, -⟩ := idx_facts t
  funext y
  obtain ⟨r, d, rfl⟩ : ∃ (r : Fin 1024) (d : Fin 256), y = ix2 r d := ⟨y 0, y 1, eq_ix2 y⟩
  refine (Row.pay2_apply (b0 m c t) (b1 m c t) (b2 m c t) (b3 m c t) (hx3 m c t) r d).trans ?_
  rw [rowX_eq, rowV_eq, tab_eq, View.read_apply]
  have hj : ((cfg0.win 4).blk t).view.emb (ix2 r d) = ix2 (SoftVQ.pt (tOf t) r) d := by
    funext a; apply Fin.ext
    match a with
    | ⟨0, _⟩ => show win0_4.index t (0 : Fin 2) * 1024 + 1 * r.val = t.val * 1024 + r.val; rw [e0]; omega
    | ⟨1, _⟩ => show win0_4.index t (1 : Fin 2) * 256 + 1 * d.val = d.val; rw [e1]; omega
  rw [hj]
  rfl

/-- Point `t` writes back tile `t` of the loss tiles. -/
theorem flushed5_eq (c : Dev nD) (t : Fin cfg0.N) :
    (dats m 0 c).flushed 5 t
      = ((cfg0.win 5).blk t).view.read (Elt Ideal) (SoftVQ.wholeTiles (argX m c) (argV m c) (argE m c)) := by
  show (cfg0.win 5).cut (grid0.coords t) ((dats m 0 c).after 5 t) = _
  rw [after0_5]
  unfold out0_5
  rw [View.canon_unit_zero hz3]
  simp only [View.ld_unit_zero (S := S1024x256) hz2, View.ld_unit_zero (S := S1024x1024) hz2, View.ld_unit_zero (S := S1x1024) hz2]
  obtain ⟨-, -, -, -, -, -, -, -, -, -, e0, e1, e2⟩ := idx_facts t
  funext y
  obtain ⟨u, i, j, rfl⟩ : ∃ (u : Fin 1) (i : Fin 8) (j : Fin 128), y = ix3 u i j := ⟨y 0, y 1, y 2, eq_ix3 y⟩
  obtain rfl : u = 0 := Subsingleton.elim _ _
  refine (LossTile.pay1_apply (k0_pay3 (F := Ideal) (b0 m c t) (b1 m c t) (b2 m c t) (b3 m c t)) i j).trans ?_
  rw [View.read_apply]
  have hj : ((cfg0.win 5).blk t).view.emb (ix3 (0 : Fin 1) i j) = ix3 (tOf t) i j := by
    funext a; apply Fin.ext
    match a with
    | ⟨0, _⟩ => show win0_5.index t (0 : Fin 3) * 1 + 1 * 0 = t.val; rw [e0]; omega
    | ⟨1, _⟩ => show win0_5.index t (1 : Fin 3) * 8 + 1 * i.val = i.val; rw [e1]; omega
    | ⟨2, _⟩ => show win0_5.index t (2 : Fin 3) * 128 + 1 * j.val = j.val; rw [e2]; omega
  rw [hj]
  unfold SoftVQ.wholeTiles SoftVQ.blockErr
  refine congrArg (fun s : EReal => (if i.val = 0 ∧ j.val = 0 then (1 : EReal) else 0) * s) ?_
  refine Finset.sum_congr rfl fun r _ => Finset.sum_congr rfl fun d _ => ?_
  refine (Row.pay3_apply (b0 m c t) (b1 m c t) (b2 m c t) (b3 m c t) (hx3 m c t) r d).trans ?_
  rw [rowX_eq, rowV_eq, tab_eq]

/-! ### The blocks tile the arrays -/

theorem mem_blk4 (t : Fin cfg0.N) (i : S65536x256.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v5_0).slice (win0_4.rect t)).set ↔ _
  rw [View.set_slice_whole, Rect.mem_set_unit]
  exact Iff.rfl

theorem mem_blk5 (t : Fin cfg0.N) (i : S64x8x128.Idx) :
    i ∈ ((cfg0.win 5).blk t).view.set ↔ ∀ a : Fin 3, win0_5.index t a * S1x8x128.size a ≤ (i a).val
      ∧ (i a).val < win0_5.index t a * S1x8x128.size a + S1x8x128.size a := by
  show i ∈ ((View.whole main_v5_1).slice (win0_5.rect t)).set ↔ _
  rw [View.set_slice_whole, Rect.mem_set_unit]
  exact Iff.rfl

/-- Row `b` of the quantised array lies in the block of point `b / 1024`. -/
theorem cover4 (i : S65536x256.Idx) :
    ∃ t : Fin cfg0.N, (cfg0.win 4).flush t = true ∧ i ∈ ((cfg0.win 4).blk t).view.set := by
  have hi0 : (i 0).val < 65536 := (i 0).isLt
  have hi1 : (i 1).val < 256 := (i 1).isLt
  let t : Fin cfg0.N := (⟨(i 0).val / 1024, by omega⟩ : Fin 64).cast N_0.symm
  have ht : t.val = (i 0).val / 1024 := rfl
  obtain ⟨-, -, -, -, -, -, -, -, e0, e1, -⟩ := idx_facts t
  refine ⟨t, flush0_4 t, ?_⟩
  rw [mem_blk4]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 256 ≤ (i 1).val ∧ (i 1).val < win0_4.index t (1 : Fin 2) * 256 + 256
    rw [e1]; omega

/-- Tile `t` of the loss tiles is the block of point `t`. -/
theorem cover5 (i : S64x8x128.Idx) :
    ∃ t : Fin cfg0.N, (cfg0.win 5).flush t = true ∧ i ∈ ((cfg0.win 5).blk t).view.set := by
  have hi0 : (i 0).val < 64 := (i 0).isLt
  have hi1 : (i 1).val < 8 := (i 1).isLt
  have hi2 : (i 2).val < 128 := (i 2).isLt
  let t : Fin cfg0.N := (⟨(i 0).val, hi0⟩ : Fin 64).cast N_0.symm
  have ht : t.val = (i 0).val := rfl
  obtain ⟨-, -, -, -, -, -, -, -, -, -, e0, e1, e2⟩ := idx_facts t
  refine ⟨t, flush0_5 t, ?_⟩
  rw [mem_blk5]
  intro a
  match a with
  | ⟨0, _⟩ =>
    show win0_5.index t (0 : Fin 3) * 1 ≤ (i 0).val ∧ (i 0).val < win0_5.index t (0 : Fin 3) * 1 + 1
    rw [e0, ht]; omega
  | ⟨1, _⟩ =>
    show win0_5.index t (1 : Fin 3) * 8 ≤ (i 1).val ∧ (i 1).val < win0_5.index t (1 : Fin 3) * 8 + 8
    rw [e1]; omega
  | ⟨2, _⟩ =>
    show win0_5.index t (2 : Fin 3) * 128 ≤ (i 2).val ∧ (i 2).val < win0_5.index t (2 : Fin 3) * 128 + 128
    rw [e2]; omega

/-! ### The two arrays after the last point -/

theorem final4 (c : Dev nD) :
    (dats m 0 c).arrAt 4 cfg0.N = SoftVQ.wholeQuant (argX m c) (argV m c) (argE m c) :=
  (dats m 0 c).arrAt_eq_of_cover 4 (SoftVQ.wholeQuant (argX m c) (argV m c) (argE m c)) (fun t _ => flushed4_eq m c t) cover4

theorem final5 (c : Dev nD) :
    (dats m 0 c).arrAt 5 cfg0.N = SoftVQ.wholeTiles (argX m c) (argV m c) (argE m c) :=
  (dats m 0 c).arrAt_eq_of_cover 5 (SoftVQ.wholeTiles (argX m c) (argV m c) (argE m c)) (fun t _ => flushed5_eq m c t) cover5

/-! ### The loss: the operations after the region -/

/-- Summing an array of tiles over all three axes from zero gives the plain total. -/
theorem total_tiles (T : S64x8x128.Idx → EReal) :
    Host.reduceAdd (F := Ideal) T (constant S_ .f32 0x00000000#32) reducesTo_S64x8x128_S_d0_1_2 h_S_ ix0 = ∑ j, T j := by
  simp only [Host.reduceAdd, Ideal.hostReduceAdd_def]
  refine (Ideal.hostReduceAdd_total reducesTo_S64x8x128_S_d0_1_2 (fun b => b.elim0) T _ ix0).trans ?_
  show Ideal.ofBits .f32 0x00000000#32 + _ = _
  rw [Ideal.ofBits_zero_f32, zero_add]

/-- After the region the program totals the loss tiles, multiplies by 5/4 and divides by the number of coordinates. -/
theorem tail_v8 (c : Dev nD) :
    (Pipeline.afterTail₀ cfgs (dats m) 0 (V0 m) [hostOps1] c main_v8 : S_.Idx → EReal) ix0
      = SoftVQ.lossK (∑ j : S64x8x128.Idx, SoftVQ.wholeTiles (argX m c) (argV m c) (argE m c) j) := by
  unfold Pipeline.afterTail₀
  show (StableHlo.after (hostOps1 (F := Ideal)) _ (Proc.devRef .tc main_v8) : S_.Idx → EReal) ix0 = _
  after_results
  have hw : (Pipeline.withArrays (cfgs 0).spec c (V0 m c) (fun w => (dats m 0 c).arrAt w (cfgs 0).N)
      (Proc.devRef .tc main_v5_1) : S64x8x128.Idx → EReal) = SoftVQ.wholeTiles (argX m c) (argV m c) (argE m c) :=
    (Pipeline.withArrays_arr spec0 launch0.win.arr_inj c _ _ 5).trans (final5 m c)
  rw [hw]
  show Ideal.div (SoftVQ.cFiveQuarters * Host.reduceAdd (F := Ideal) (SoftVQ.wholeTiles (argX m c) (argV m c) (argE m c))
      (constant S_ .f32 0x00000000#32) reducesTo_S64x8x128_S_d0_1_2 h_S_ ix0) SoftVQ.cCount = _
  rw [total_tiles]
  rfl

/-! ### The kernel's run, restated -/

/-- Every weakly fair execution of the program terminates with the quantised array and the loss at the specification's
    first way of the argument arrays, and the argument arrays unchanged. -/
theorem run : θ_run defs (onTc (τ := τ) (main (F := Ideal))) ⟨m, fun _ => 0, ρ⟩ fun r => ∀ c : Dev nD,
      r.2.mem ((c.tc : Thread nD τ).loc main_v5_0) = SoftVQ.wholeQuant (argX m c) (argV m c) (argE m c)
      ∧ (r.2.mem ((c.tc : Thread nD τ).loc main_v8) : S_.Idx → EReal) ix0
          = SoftVQ.lossK (∑ j : S64x8x128.Idx, SoftVQ.wholeTiles (argX m c) (argV m c) (argE m c) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 4).trans (final4 m c),
      (congrFun ((h c).2 main_v8 (Pipeline.mem_restRefs_of main_v8 (by decide) (by decide))) ix0).trans (tail_v8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.RefSide.lean ====
/-
  The reference computation of soft vector quantisation, read one element at a time.

  The reference program works on whole arrays: the points `x` (65536 rows of 256 coordinates), the log-scale parameters
  `var` (65536 rows of 1024 numbers) and the codebook `emb` (1024 entries of 256 coordinates).  Every stage of it is an
  elementwise operation, a broadcast, a contraction over one axis or a sum over one axis, so the element at row `b` of each
  stage depends on row `b` of `x` and of `var` and on the codebook only.  This module follows the stages in program order
  and identifies, over the extended reals, the element at row `b` with the corresponding quantity of `SoftVQ` at the rows
  `rowX x b`, `rowV var b` and the table `tab emb`:

    squared norms, inner products  →  `SoftVQ.dist`          exp (−2·var)       →  `SoftVQ.prec`
    exp (…)/√prec                  →  `SoftVQ.weightR`       its row sum, the normalised weight  →  `SoftVQ.probR`
    the weighted mean of entries   →  `SoftVQ.quantR`        the squared error  →  `SoftVQ.sqR`

  and so the two results: the straight-through array is `SoftVQ.throughR` coordinate by coordinate (`out_apply`), and the
  scalar loss is `SoftVQ.lossR` of the total squared error, the double sum over rows and coordinates (`loss_apply`).
  Sums whose initial value is the word of 0 start at 0; a sum over all positions of a rank-2 array is the double sum
  over its coordinates.
-/
import proofs.«163527_j87041807220993_2_alg».proof.Proof.Spec
import proofs.«163527_j87041807220993_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic
open Idealize.ShloMosaic.ValueIdx

/-- Row `b` of the points: its 256 coordinates. -/
abbrev rowX (x : FVec Ideal S65536x256 .f32) (b : Fin 65536) : Fin 256 → EReal :=
  fun d : Fin 256 => x (ValueIdx.ix2 b d)
/-- Row `b` of the log-scale parameters: one number per codebook entry. -/
abbrev rowV (var : FVec Ideal S65536x1024 .f32) (b : Fin 65536) : Fin 1024 → EReal :=
  fun k : Fin 1024 => var (ValueIdx.ix2 b k)
/-- The codebook as a table: entry `k`, coordinate `d`. -/
abbrev tab (emb : FVec Ideal S1024x256 .f32) : Fin 1024 → Fin 256 → EReal :=
  fun (k : Fin 1024) (d : Fin 256) => emb (ValueIdx.ix2 k d)

variable (x : FVec Ideal S65536x256 .f32) (var : FVec Ideal S65536x1024 .f32) (emb : FVec Ideal S1024x256 .f32)

/-! ### The squared distance -/

/-- The squared norm of row `b` of the points. -/
theorem v1_at (b : Fin 65536) :
    val_main_v1 (F := Ideal) x (ix1 b) = ∑ d : Fin 256, x (ix2 b d) * x (ix2 b d) := by
  rw [val_main_v1_apply, val_main_cst_apply, Ideal.ofBits_def, Ideal.ofBits_zero_f32, zero_add]
  refine Finset.sum_congr rfl fun k _ => ?_
  have e : idx_main_v1 (ix1 b) k = ix2 b k := funext fun a => by match a with | ⟨0, _⟩ => rfl | ⟨1, _⟩ => rfl
  rw [val_main_v0_apply, Ideal.mulf_def, e]

/-- … broadcast along the codebook axis. -/
theorem v6_at (b : Fin 65536) (k : Fin 1024) :
    val_main_v6 (F := Ideal) x (ix2 b k) = ∑ d : Fin 256, x (ix2 b d) * x (ix2 b d) := by
  have e : idx_main_v2 (idx_main_v6 (ix2 b k)) = ix1 b := funext fun a => by match a with | ⟨0, _⟩ => rfl
  rw [val_main_v6_apply, val_main_v2_apply, e, v1_at]

/-- The squared norm of codebook entry `k`. -/
theorem v4_at (k : Fin 1024) :
    val_main_v4 (F := Ideal) emb (ix1 k) = ∑ d : Fin 256, emb (ix2 k d) * emb (ix2 k d) := by
  rw [val_main_v4_apply, val_main_cst_0_apply, Ideal.ofBits_def, Ideal.ofBits_zero_f32, zero_add]
  refine Finset.sum_congr rfl fun d _ => ?_
  have e : idx_main_v4 (ix1 k) d = ix2 k d := funext fun a => by match a with | ⟨0, _⟩ => rfl | ⟨1, _⟩ => rfl
  rw [val_main_v3_apply, Ideal.mulf_def, e]

/-- … broadcast along the row axis. -/
theorem v7_at (b : Fin 65536) (k : Fin 1024) :
    val_main_v7 (F := Ideal) emb (ix2 b k) = ∑ d : Fin 256, emb (ix2 k d) * emb (ix2 k d) := by
  have e : idx_main_v5 (idx_main_v7 (ix2 b k)) = ix1 k := funext fun a => by match a with | ⟨0, _⟩ => rfl
  rw [val_main_v7_apply, val_main_v5_apply, e, v4_at]

/-- The inner product of row `b` with codebook entry `k` (the contraction against the transposed codebook). -/
theorem v10_at (b : Fin 65536) (k : Fin 1024) :
    val_main_v10 (F := Ideal) x emb (ix2 b k) = ∑ d : Fin 256, x (ix2 b d) * emb (ix2 k d) := by
  rw [val_main_v10_apply]
  refine Finset.sum_congr rfl fun d _ => ?_
  have el : lidx_main_v10 (ix2 b k) d = ix2 b d := funext fun a => by match a with | ⟨0, _⟩ => rfl | ⟨1, _⟩ => rfl
  have er : idx_main_v9 (ridx_main_v10 (ix2 b k) d) = ix2 k d :=
    funext fun a => by match a with | ⟨0, _⟩ => rfl | ⟨1, _⟩ => rfl
  rw [val_main_v9_apply, el, er]

/-- The squared distance from row `b` to codebook entry `k`. -/
theorem v13_at (b : Fin 65536) (k : Fin 1024) :
    val_main_v13 (F := Ideal) x emb (ix2 b k) = SoftVQ.dist (rowX x b) (tab emb) k := by
  rw [val_main_v13_apply, val_main_v8_apply, val_main_v12_apply, val_main_v11_apply, val_main_cst_1_apply,
    v6_at, v7_at, v10_at, Ideal.subf_def, Ideal.addf_def, Ideal.mulf_def, Ideal.ofBits_def]
  rfl

/-! ### The precision and the weight -/

/-- The precision of entry `k` at row `b`. -/
theorem v16_at (b : Fin 65536) (k : Fin 1024) :
    val_main_v16 (F := Ideal) var (ix2 b k) = SoftVQ.prec (rowV var b) k := by
  rw [val_main_v16_apply, val_main_v15_apply, val_main_v14_apply, val_main_cst_2_apply,
    Ideal.hostUnary_exp_def, Ideal.mulf_def, Ideal.ofBits_def]
  rfl

/-- The weight of entry `k` at row `b`. -/
theorem v22_at (b : Fin 65536) (k : Fin 1024) :
    val_main_v22 (F := Ideal) x var emb (ix2 b k) = SoftVQ.weightR (rowX x b) (rowV var b) (tab emb) k := by
  rw [val_main_v22_apply, val_main_v20_apply, val_main_v21_apply, val_main_v19_apply, val_main_v18_apply,
    val_main_v17_apply, val_main_cst_3_apply, v13_at, v16_at, Ideal.hostDivf_def, Ideal.hostUnary_exp_def,
    Ideal.hostUnary_sqrt_def, Ideal.mulf_def, Ideal.mulf_def, Ideal.ofBits_def]
  rfl

/-- The sum of the weights of row `b`. -/
theorem v23_at (b : Fin 65536) :
    val_main_v23 (F := Ideal) x var emb (ix1 b)
      = ∑ j : Fin 1024, SoftVQ.weightR (rowX x b) (rowV var b) (tab emb) j := by
  rw [val_main_v23_apply, val_main_cst_4_apply, Ideal.ofBits_def, Ideal.ofBits_zero_f32, zero_add]
  refine Finset.sum_congr rfl fun j _ => ?_
  have e : idx_main_v23 (ix1 b) j = ix2 b j := funext fun a => by match a with | ⟨0, _⟩ => rfl | ⟨1, _⟩ => rfl
  rw [e, v22_at]

/-- The normalised weight of entry `k` at row `b`. -/
theorem v26_at (b : Fin 65536) (k : Fin 1024) :
    val_main_v26 (F := Ideal) x var emb (ix2 b k) = SoftVQ.probR (rowX x b) (rowV var b) (tab emb) k := by
  have e : idx_main_v24 (idx_main_v25 (ix2 b k)) = ix1 b := funext fun a => by match a with | ⟨0, _⟩ => rfl
  rw [val_main_v26_apply, val_main_v25_apply, val_main_v24_apply, e, v22_at, v23_at, Ideal.hostDivf_def]
  rfl

/-! ### The quantised point, its error, and the two results -/

/-- Coordinate `d` of the quantisation of row `b`. -/
theorem v27_at (b : Fin 65536) (d : Fin 256) :
    val_main_v27 (F := Ideal) x var emb (ix2 b d) = SoftVQ.quantR (rowX x b) (rowV var b) (tab emb) d := by
  rw [val_main_v27_apply]
  unfold SoftVQ.quantR
  refine Finset.sum_congr rfl fun k _ => ?_
  have el : lidx_main_v27 (ix2 b d) k = ix2 b k := funext fun a => by match a with | ⟨0, _⟩ => rfl | ⟨1, _⟩ => rfl
  have er : ridx_main_v27 (ix2 b d) k = ix2 k d := funext fun a => by match a with | ⟨0, _⟩ => rfl | ⟨1, _⟩ => rfl
  rw [el, er, v26_at]

/-- The straight-through result at row `b`, coordinate `d`. -/
theorem out_apply (b : Fin 65536) (d : Fin 256) :
    val_main_v39 (F := Ideal) x var emb (ValueIdx.ix2 b d)
      = SoftVQ.throughR (rowX x b) (rowV var b) (tab emb) d := by
  rw [val_main_v39_apply, val_main_v38_apply, v27_at, Ideal.addf_def, Ideal.subf_def]
  rfl

/-- The squared error at row `b`, coordinate `d` (first copy). -/
theorem v29_at (b : Fin 65536) (d : Fin 256) :
    val_main_v29 (F := Ideal) x var emb (ix2 b d) = SoftVQ.sqR (rowX x b) (rowV var b) (tab emb) d := by
  rw [val_main_v29_apply, val_main_v28_apply, v27_at, Ideal.mulf_def, Ideal.subf_def]
  rfl

/-- The squared error at row `b`, coordinate `d` (second copy: the same term). -/
theorem v33_at (b : Fin 65536) (d : Fin 256) :
    val_main_v33 (F := Ideal) x var emb (ix2 b d) = SoftVQ.sqR (rowX x b) (rowV var b) (tab emb) d := by
  rw [val_main_v33_apply, val_main_v32_apply, v27_at, Ideal.mulf_def, Ideal.subf_def]
  rfl

/-- The total squared error: the sum over all positions is the double sum over rows and coordinates. -/
theorem v30_at (i : S_.Idx) :
    val_main_v30 (F := Ideal) x var emb i
      = ∑ b : Fin 65536, ∑ d : Fin 256, SoftVQ.sqR (rowX x b) (rowV var b) (tab emb) d := by
  rw [val_main_v30_apply, val_main_cst_5_apply, Ideal.ofBits_def, Ideal.ofBits_zero_f32, zero_add, sum_idx2]
  exact Finset.sum_congr rfl fun b _ => Finset.sum_congr rfl fun d _ => v29_at x var emb b d

/-- The same total from the second copy. -/
theorem v34_at (i : S_.Idx) :
    val_main_v34 (F := Ideal) x var emb i
      = ∑ b : Fin 65536, ∑ d : Fin 256, SoftVQ.sqR (rowX x b) (rowV var b) (tab emb) d := by
  rw [val_main_v34_apply, val_main_cst_7_apply, Ideal.ofBits_def, Ideal.ofBits_zero_f32, zero_add, sum_idx2]
  exact Finset.sum_congr rfl fun b _ => Finset.sum_congr rfl fun d _ => v33_at x var emb b d

/-- The loss: the mean squared error plus a quarter of it. -/
theorem loss_apply :
    val_main_v37 (F := Ideal) x var emb ValueIdx.ix0
      = SoftVQ.lossR (∑ b : Fin 65536, ∑ d : Fin 256, SoftVQ.sqR (rowX x b) (rowV var b) (tab emb) d) := by
  rw [val_main_v37_apply, val_main_v31_apply, val_main_v36_apply, val_main_v35_apply, v30_at, v34_at,
    val_main_cst_6_apply, val_main_cst_8_apply, val_main_cst_9_apply, Ideal.addf_def, Ideal.mulf_def,
    Ideal.hostDivf_def, Ideal.ofBits_def, Ideal.ofBits_def]
  rfl

/-! ### The same two results as whole arrays, and on the terms the run of the program states -/

/-- The straight-through result as an array: at every index, `SoftVQ.throughR` of the index's row at its coordinate. -/
theorem out_eq :
    val_main_v39 (F := Ideal) x var emb
      = fun i : S65536x256.Idx => SoftVQ.throughR (rowX x (i 0)) (rowV var (i 0)) (tab emb) (i 1) := by
  funext i
  obtain ⟨b, d, rfl⟩ : ∃ b d, i = ix2 b d := ⟨i 0, i 1, eq_ix2 i⟩
  exact out_apply x var emb b d

/-- The loss at any index of the scalar shape (there is one). -/
theorem loss_eq (i : S_.Idx) :
    val_main_v37 (F := Ideal) x var emb i
      = SoftVQ.lossR (∑ b : Fin 65536, ∑ d : Fin 256, SoftVQ.sqR (rowX x b) (rowV var b) (tab emb) d) := by
  rw [eq_ix0 i]
  exact loss_apply x var emb

section OnTheRun

open Idealize.SL.Sem Idealize.ShloMosaic.TcCoe Idealize.ShloMosaic.StableHlo

variable (m : (ℓ : Loc nD τ sig) → Buf (Elt Ideal) ℓ) (c : Dev nD)

/-- The loss the run states by name, from the launch contents of the three arguments. -/
theorem res_loss_apply :
    Cert.ReferenceIdeal.Value.res_main_v37 (F := Ideal) m c ValueIdx.ix0
      = SoftVQ.lossR (∑ b : Fin 65536, ∑ d : Fin 256,
          SoftVQ.sqR (rowX (m ((c.tc : Thread nD τ).loc main_arg0)) b) (rowV (m ((c.tc : Thread nD τ).loc main_arg1)) b)
            (tab (m ((c.tc : Thread nD τ).loc main_arg2))) d) := by
  rw [val_main_v37_eq]
  exact loss_apply _ _ _

/-- The straight-through result of the run, from the launch contents of the three arguments: any array equal to the
    stage is `SoftVQ.throughR` element by element. -/
theorem res_out_apply (o : FVec Ideal S65536x256 .f32)
    (ho : o = val_main_v39 (F := Ideal) (m ((c.tc : Thread nD τ).loc main_arg0)) (m ((c.tc : Thread nD τ).loc main_arg1))
      (m ((c.tc : Thread nD τ).loc main_arg2))) (b : Fin 65536) (d : Fin 256) :
    o (ValueIdx.ix2 b d)
      = SoftVQ.throughR (rowX (m ((c.tc : Thread nD τ).loc main_arg0)) b) (rowV (m ((c.tc : Thread nD τ).loc main_arg1)) b)
          (tab (m ((c.tc : Thread nD τ).loc main_arg2))) d := by
  rw [ho]
  exact out_apply _ _ _ b d

/-- The run of the reference program, read element by element: every weakly fair execution terminates with the
    straight-through result `SoftVQ.throughR` of each row at each coordinate, the loss `SoftVQ.lossR` of the total squared
    error, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (b : Fin 65536) (d : Fin 256), r.2.mem ((c.tc : Thread nD τ).loc main_v39) (ValueIdx.ix2 b d)
          = SoftVQ.throughR (rowX (m ((c.tc : Thread nD τ).loc main_arg0)) b)
              (rowV (m ((c.tc : Thread nD τ).loc main_arg1)) b) (tab (m ((c.tc : Thread nD τ).loc main_arg2))) d)
      ∧ r.2.mem ((c.tc : Thread nD τ).loc main_v37) ValueIdx.ix0
          = SoftVQ.lossR (∑ b : Fin 65536, ∑ d : Fin 256,
              SoftVQ.sqR (rowX (m ((c.tc : Thread nD τ).loc main_arg0)) b)
                (rowV (m ((c.tc : Thread nD τ).loc main_arg1)) b) (tab (m ((c.tc : Thread nD τ).loc main_arg2))) d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨fun b d => res_out_apply m c _ ((h c).1.trans (val_main_v39_eq _ _ _)) b d,
        (congrFun (h c).2.1 ValueIdx.ix0).trans (res_loss_apply m c), (h c).2.2⟩)
    (Cert.ReferenceIdeal.Value.run m ρ)

end OnTheRun

end Cert.ReferenceIdeal.RefValue

end
-- ==== Proof.SpecLaws.lean ====
/-
  The two ways of computing the soft quantisation agree on finite inputs.

  Every function of the specification, evaluated at arrays of real numbers read as extended reals, is the
  extended real of a real-valued twin.  Over the reals the two ways differ by
    • √(exp (−2v)) = exp (−v), which turns the quotient exp (−½·d·p) / √p into exp (v − ½·d·p), and
    • a common factor exp (−M) of numerator and denominator of the normalisation, which cancels for every real M.
-/
import proofs.«163527_j87041807220993_2_alg».proof.Proof.Spec
import Mathlib.Analysis.SpecialFunctions.Exp
import Mathlib.Analysis.SpecialFunctions.Sqrt
import Mathlib.Analysis.SpecialFunctions.Pow.Real

noncomputable section

open scoped BigOperators

namespace SoftVQ

open Idealize.ShloMosaic

/-! ### The constants, as the reals their words denote -/

theorem cTwo_eq : cTwo = ((2 : ℝ) : EReal) := by
  simp [Ideal.ofBits, Ideal.ieee, -EReal.coe_mul]; norm_num

theorem cNegTwo_eq : cNegTwo = ((-2 : ℝ) : EReal) := by
  simp [Ideal.ofBits, Ideal.ieee, -EReal.coe_mul]; norm_num

theorem cHalf_eq : cHalf = ((1/2 : ℝ) : EReal) := by
  simp [Ideal.ofBits, Ideal.ieee, -EReal.coe_mul]; norm_num

theorem cNegHalf_eq : cNegHalf = ((-1/2 : ℝ) : EReal) := by
  simp [Ideal.ofBits, Ideal.ieee, -EReal.coe_mul]; norm_num

theorem cFiveQuarters_eq : cFiveQuarters = ((5/4 : ℝ) : EReal) := by
  simp [Ideal.ofBits, Ideal.ieee, -EReal.coe_mul]; norm_num

theorem cQuarter_eq : cQuarter = ((1/4 : ℝ) : EReal) := by
  simp [Ideal.ofBits, Ideal.ieee, -EReal.coe_mul]; norm_num

theorem cCount_eq : cCount = ((16777216 : ℝ) : EReal) := by
  simp [Ideal.ofBits, Ideal.ieee, -EReal.coe_mul]; norm_num

/-! ### Extended reals of real numbers: sums, quotients, suprema -/

/-- A finite sum of reals, read in the extended reals, is the sum of the readings. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of two reals by a nonzero divisor is the real quotient. -/
theorem div_real (a : ℝ) {b : ℝ} (hb : b ≠ 0) :
    Ideal.div (a : EReal) (b : EReal) = ((a / b : ℝ) : EReal) := by
  rw [Ideal.div_coe hb, ← EReal.coe_mul, mul_one_div]

/-- The largest of finitely many reals (at least one) is a real. -/
theorem sup_real {ι : Type*} (s : Finset ι) (hs : s.Nonempty) (f : ι → ℝ) :
    ∃ M : ℝ, (s.sup fun i => ((f i : ℝ) : EReal)) = (M : EReal) := by
  obtain ⟨i, _, hi⟩ := Finset.exists_mem_eq_sup s hs (fun i => ((f i : ℝ) : EReal))
  exact ⟨f i, hi⟩

/-! ### The two laws over the reals -/

/-- A sum of exponentials over a nonempty index type is not zero. -/
theorem sum_exp_ne_zero {ι : Type*} [Fintype ι] [Nonempty ι] (e : ι → ℝ) :
    (∑ j, Real.exp (e j)) ≠ 0 :=
  (Finset.sum_pos (fun j _ => Real.exp_pos (e j)) Finset.univ_nonempty).ne'

/-- Normalised exponentials do not change when one number is subtracted from every exponent. -/
theorem softmax_shift {ι : Type*} [Fintype ι] [Nonempty ι] (e : ι → ℝ) (M : ℝ) (k : ι) :
    Real.exp (e k - M) / ∑ j, Real.exp (e j - M) = Real.exp (e k) / ∑ j, Real.exp (e j) := by
  have hM : Real.exp M ≠ 0 := (Real.exp_pos M).ne'
  have hS : (∑ j, Real.exp (e j)) ≠ 0 := sum_exp_ne_zero e
  simp only [Real.exp_sub]
  rw [← Finset.sum_div]
  field_simp

/-- √(exp (−2v)) = exp (−v). -/
theorem sqrt_exp_neg_two (v : ℝ) : Real.sqrt (Real.exp (-2 * v)) = Real.exp (-v) := by
  rw [show (-2 * v) = (-v) + (-v) by ring, Real.exp_add, Real.sqrt_mul_self (Real.exp_pos _).le]

/-- exp (−½·d·p) / √p = exp (v − ½·d·p) at p = exp (−2v). -/
theorem weight_real (d v : ℝ) :
    Real.exp ((-1/2 * d) * Real.exp (-2 * v)) / Real.sqrt (Real.exp (-2 * v))
      = Real.exp (v - (1/2 * d) * Real.exp (-2 * v)) := by
  rw [sqrt_exp_neg_two, ← Real.exp_sub]
  congr 1
  ring

/-! ### The real-valued twins of the specification -/

section Twins

variable (X : Fin 256 → ℝ) (V : Fin 1024 → ℝ) (Er : Fin 1024 → Fin 256 → ℝ)

/-- The squared distance over the reals. -/
def distℝ (k : Fin 1024) : ℝ :=
  ((∑ d, X d * X d) + (∑ d, Er k d * Er k d)) - 2 * (∑ d, X d * Er k d)

/-- The exponent over the reals: v − (½·dist)·exp (−2v). -/
def expoℝ (k : Fin 1024) : ℝ := V k - (1/2 * distℝ X Er k) * Real.exp (-2 * V k)

/-- The normalised weight over the reals, with no shift. -/
def probℝ (k : Fin 1024) : ℝ := Real.exp (expoℝ X V Er k) / ∑ j, Real.exp (expoℝ X V Er j)

/-- The quantised coordinate over the reals. -/
def quantℝ (d : Fin 256) : ℝ := ∑ k, probℝ X V Er k * Er k d

theorem dist_coe (k : Fin 1024) :
    dist (fun d => (X d : EReal)) (fun k d => (Er k d : EReal)) k = (distℝ X Er k : EReal) := by
  simp only [dist, distℝ, cTwo_eq, ← EReal.coe_mul, coe_sum, ← EReal.coe_add, ← EReal.coe_sub]

theorem prec_coe (k : Fin 1024) :
    prec (fun k => (V k : EReal)) k = (Real.exp (-2 * V k) : EReal) := by
  simp only [prec, cNegTwo_eq, ← EReal.coe_mul, Ideal.exp_coe]

theorem expoK_coe (k : Fin 1024) :
    expoK (fun d => (X d : EReal)) (fun k => (V k : EReal)) (fun k d => (Er k d : EReal)) k
      = (expoℝ X V Er k : EReal) := by
  simp only [expoK, expoℝ, dist_coe, prec_coe, cHalf_eq, ← EReal.coe_mul, ← EReal.coe_sub]

/-- The largest exponent of the row is a real number. -/
theorem shiftK_real :
    ∃ M : ℝ, shiftK (fun d => (X d : EReal)) (fun k => (V k : EReal)) (fun k d => (Er k d : EReal))
      = (M : EReal) := by
  unfold shiftK
  simp only [expoK_coe]
  exact sup_real Finset.univ Finset.univ_nonempty _

theorem weightK_coe {M : ℝ}
    (hM : shiftK (fun d => (X d : EReal)) (fun k => (V k : EReal)) (fun k d => (Er k d : EReal))
      = (M : EReal)) (k : Fin 1024) :
    weightK (fun d => (X d : EReal)) (fun k => (V k : EReal)) (fun k d => (Er k d : EReal)) k
      = (Real.exp (expoℝ X V Er k - M) : EReal) := by
  rw [weightK, hM, expoK_coe, ← EReal.coe_sub, Ideal.exp_coe]

/-- First way: the normalised weight is the real one; the shift cancels. -/
theorem probK_coe (k : Fin 1024) :
    probK (fun d => (X d : EReal)) (fun k => (V k : EReal)) (fun k d => (Er k d : EReal)) k
      = (probℝ X V Er k : EReal) := by
  obtain ⟨M, hM⟩ := shiftK_real X V Er
  rw [probK]
  simp only [weightK_coe X V Er hM]
  rw [coe_sum, div_real _ (sum_exp_ne_zero _), softmax_shift, probℝ]

/-- Second way: the weight is the exponential of the first way's exponent. -/
theorem weightR_coe (k : Fin 1024) :
    weightR (fun d => (X d : EReal)) (fun k => (V k : EReal)) (fun k d => (Er k d : EReal)) k
      = (Real.exp (expoℝ X V Er k) : EReal) := by
  have hs : Real.sqrt (Real.exp (-2 * V k)) ≠ 0 :=
    (Real.sqrt_pos.mpr (Real.exp_pos _)).ne'
  rw [weightR, dist_coe, prec_coe, cNegHalf_eq, ← EReal.coe_mul, ← EReal.coe_mul, Ideal.exp_coe,
    Ideal.sqrt_coe, if_neg (not_lt.mpr (Real.exp_pos _).le), div_real _ hs, weight_real, expoℝ]

theorem probR_coe (k : Fin 1024) :
    probR (fun d => (X d : EReal)) (fun k => (V k : EReal)) (fun k d => (Er k d : EReal)) k
      = (probℝ X V Er k : EReal) := by
  rw [probR]
  simp only [weightR_coe]
  rw [coe_sum, div_real _ (sum_exp_ne_zero _), probℝ]

theorem quantK_coe (d : Fin 256) :
    quantK (fun d => (X d : EReal)) (fun k => (V k : EReal)) (fun k d => (Er k d : EReal)) d
      = (quantℝ X V Er d : EReal) := by
  simp only [quantK, quantℝ, probK_coe, ← EReal.coe_mul, coe_sum]

theorem quantR_coe (d : Fin 256) :
    quantR (fun d => (X d : EReal)) (fun k => (V k : EReal)) (fun k d => (Er k d : EReal)) d
      = (quantℝ X V Er d : EReal) := by
  simp only [quantR, quantℝ, probR_coe, ← EReal.coe_mul, coe_sum]

/-! ### The statements the assembly cites -/

theorem quantK_real (d : Fin 256) :
    ∃ q : ℝ, quantK (fun d => (X d : EReal)) (fun k => (V k : EReal)) (fun k d => (Er k d : EReal)) d
      = (q : EReal) :=
  ⟨quantℝ X V Er d, quantK_coe X V Er d⟩

theorem quantR_eq_quantK (d : Fin 256) :
    quantR (fun d => (X d : EReal)) (fun k => (V k : EReal)) (fun k d => (Er k d : EReal)) d
      = quantK (fun d => (X d : EReal)) (fun k => (V k : EReal)) (fun k d => (Er k d : EReal)) d := by
  rw [quantR_coe, quantK_coe]

theorem throughR_eq_quantK (d : Fin 256) :
    throughR (fun d => (X d : EReal)) (fun k => (V k : EReal)) (fun k d => (Er k d : EReal)) d
      = quantK (fun d => (X d : EReal)) (fun k => (V k : EReal)) (fun k d => (Er k d : EReal)) d := by
  rw [throughR, quantR_coe, quantK_coe, ← EReal.coe_sub, ← EReal.coe_add]
  congr 1
  ring

theorem sqR_eq_sqK (d : Fin 256) :
    sqR (fun d => (X d : EReal)) (fun k => (V k : EReal)) (fun k d => (Er k d : EReal)) d
      = sqK (fun d => (X d : EReal)) (fun k => (V k : EReal)) (fun k d => (Er k d : EReal)) d := by
  rw [sqR, sqK, quantR_eq_quantK]

theorem sqK_real (d : Fin 256) :
    ∃ s : ℝ, sqK (fun d => (X d : EReal)) (fun k => (V k : EReal)) (fun k d => (Er k d : EReal)) d
      = (s : EReal) := by
  refine ⟨(quantℝ X V Er d - X d) * (quantℝ X V Er d - X d), ?_⟩
  rw [sqK, quantK_coe, ← EReal.coe_sub, ← EReal.coe_mul]

end Twins

/-! ### The loss -/

theorem lossR_eq_lossK (S : ℝ) : lossR (S : EReal) = lossK (S : EReal) := by
  have hc : (16777216 : ℝ) ≠ 0 := by norm_num
  rw [lossR, lossK, cCount_eq, cQuarter_eq, cFiveQuarters_eq, ← EReal.coe_mul, div_real _ hc,
    div_real _ hc, ← EReal.coe_mul, ← EReal.coe_add]
  congr 1
  ring

end SoftVQ

end
-- ==== Proof.TileSum.lean ====
/-
  The sum of all entries of the array of loss tiles is the total squared error of all points.

  Each 8×128 tile is zero off its corner, so its entries sum to the corner, the total squared error of one block of 1024
  points; and the 64 blocks of 1024 consecutive points are all 65536 points, each once.  Only the commutative-monoid laws
  of the sum and 0·t = 0, 1·t = t are used, so the statement holds for arbitrary extended reals.
-/
import proofs.«163527_j87041807220993_2_alg».proof.Proof.Whole
import Idealize.ShloMosaic.Lib.ValueIdx
import Mathlib.Algebra.BigOperators.Fin
import Mathlib.Logic.Equiv.Fin.Basic

noncomputable section

open scoped BigOperators

namespace SoftVQ

open Idealize.ShloMosaic Idealize.ShloMosaic.ValueIdx

/-! ### A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ValueIdx.ix3 a b c) := by
  rw [← Equiv.sum_comp (idxEquiv3 (n0 := n0) (n1 := n1) (n2 := n2)).symm f, Fintype.sum_prod_type]
  simp only [Fintype.sum_prod_type]
  rfl

/-! ### One tile sums to its corner -/

/-- Over an 8×128 tile, the entries (1 at the corner (0, 0), 0 elsewhere)·t sum to t. -/
theorem sum_corner (t : EReal) :
    (∑ i : Fin 8, ∑ j : Fin 128, (if i.val = 0 ∧ j.val = 0 then (1 : EReal) else 0) * t) = t := by
  rw [Fintype.sum_eq_single (0 : Fin 8)]
  · rw [Fintype.sum_eq_single (0 : Fin 128)]
    · simp
    · intro j hj
      have hj0 : j.val ≠ 0 := fun h => hj (Fin.ext h)
      simp [hj0]
  · intro i hi
    have hi0 : i.val ≠ 0 := fun h => hi (Fin.ext h)
    refine Finset.sum_eq_zero fun j _ => ?_
    simp [hi0]

/-! ### The 64 blocks of 1024 consecutive points are all the points -/

/-- (block, place in the block) ↦ point, as a bijection: the pair (t, r) goes to r + 1024·t. -/
def ptEquiv : Fin 64 × Fin 1024 ≃ Fin 65536 := finProdFinEquiv

theorem ptEquiv_apply (t : Fin 64) (r : Fin 1024) : ptEquiv (t, r) = pt t r := by
  apply Fin.ext
  show r.val + 1024 * t.val = t.val * 1024 + r.val
  omega

/-- A sum over the points, block by block, is the sum over the points. -/
theorem sum_pt {M : Type*} [AddCommMonoid M] (g : Fin 65536 → M) :
    (∑ t : Fin 64, ∑ r : Fin 1024, g (pt t r)) = ∑ b : Fin 65536, g b := by
  rw [← Equiv.sum_comp ptEquiv g, Fintype.sum_prod_type]
  simp only [ptEquiv_apply]

/-! ### The tiles -/

section Tiles

variable (X : (⟨2, ![65536, 256]⟩ : Shape).Idx → EReal) (VAR : (⟨2, ![65536, 1024]⟩ : Shape).Idx → EReal)
  (EMB : (⟨2, ![1024, 256]⟩ : Shape).Idx → EReal)

/-- Tile t sums to the total squared error of block t. -/
theorem sum_tile (t : Fin 64) :
    (∑ b : Fin 8, ∑ c : Fin 128, wholeTiles X VAR EMB (ix3 t b c)) = blockErr X VAR EMB t :=
  sum_corner (blockErr X VAR EMB t)

theorem sum_wholeTiles :
    (∑ j : (⟨3, ![64, 8, 128]⟩ : Shape).Idx, wholeTiles X VAR EMB j)
      = ∑ b : Fin 65536, ∑ d : Fin 256, sqK (rowX X b) (rowV VAR b) (tab EMB) d := by
  rw [sum_idx3]
  simp only [sum_tile]
  exact sum_pt (fun b => ∑ d : Fin 256, sqK (rowX X b) (rowV VAR b) (tab EMB) d)

end Tiles

end SoftVQ

end
-- ==== Proof.Bridge.lean ====
/-
  The two computations agree on arrays of finite numbers.

  For argument arrays every entry of which is a real number: the point plus the difference between its quantisation
  (second way) and itself is its quantisation (first way), entry by entry; and the mean squared error plus a quarter of it
  (second way, summed over all points at once) is 5/4 of the total of the loss tiles divided by the number of coordinates
  (first way, summed tile by tile).  Both follow row by row from the laws of the specification, once each row is written as a
  row of real numbers; the total squared error is then itself a real number, which is what the law of the loss needs.
-/
import proofs.«163527_j87041807220993_2_alg».proof.Proof.Whole
import proofs.«163527_j87041807220993_2_alg».proof.Proof.SpecLaws
import proofs.«163527_j87041807220993_2_alg».proof.Proof.TileSum

noncomputable section

open scoped BigOperators

namespace SoftVQ

open Idealize.ShloMosaic Idealize.ShloMosaic.ValueIdx

variable (X : (⟨2, ![65536, 256]⟩ : Shape).Idx → EReal) (VAR : (⟨2, ![65536, 1024]⟩ : Shape).Idx → EReal)
  (EMB : (⟨2, ![1024, 256]⟩ : Shape).Idx → EReal)
  (hX : ∀ i, ∃ r : ℝ, X i = (r : EReal)) (hV : ∀ i, ∃ r : ℝ, VAR i = (r : EReal)) (hE : ∀ i, ∃ r : ℝ, EMB i = (r : EReal))

include hX hV hE

/-- Row `b` as rows of real numbers: the three row laws of the specification, at the rows of the arrays. -/
theorem rows_real (b : Fin 65536) : ∃ (Xr : Fin 256 → ℝ) (Vr : Fin 1024 → ℝ) (Er : Fin 1024 → Fin 256 → ℝ),
    rowX X b = (fun d => (Xr d : EReal)) ∧ rowV VAR b = (fun k => (Vr k : EReal)) ∧ tab EMB = (fun k d => (Er k d : EReal)) := by
  choose Xr hXr using hX
  choose Vr hVr using hV
  choose Er hEr using hE
  exact ⟨fun d => Xr (ix2 b d), fun k => Vr (ix2 b k), fun k d => Er (ix2 k d),
    funext fun d => hXr _, funext fun k => hVr _, funext fun k => funext fun d => hEr _⟩

/-- The straight-through value of the second way is the quantisation of the first way. -/
theorem through_eq (b : Fin 65536) (d : Fin 256) :
    throughR (rowX X b) (rowV VAR b) (tab EMB) d = quantK (rowX X b) (rowV VAR b) (tab EMB) d := by
  obtain ⟨Xr, Vr, Er, e1, e2, e3⟩ := rows_real X VAR EMB hX hV hE b
  rw [e1, e2, e3]
  exact throughR_eq_quantK Xr Vr Er d

/-- The squared errors of the two ways agree, and are real numbers. -/
theorem sq_eq (b : Fin 65536) (d : Fin 256) :
    sqR (rowX X b) (rowV VAR b) (tab EMB) d = sqK (rowX X b) (rowV VAR b) (tab EMB) d := by
  obtain ⟨Xr, Vr, Er, e1, e2, e3⟩ := rows_real X VAR EMB hX hV hE b
  rw [e1, e2, e3]
  exact sqR_eq_sqK Xr Vr Er d

theorem sq_real (b : Fin 65536) (d : Fin 256) : ∃ s : ℝ, sqK (rowX X b) (rowV VAR b) (tab EMB) d = (s : EReal) := by
  obtain ⟨Xr, Vr, Er, e1, e2, e3⟩ := rows_real X VAR EMB hX hV hE b
  rw [e1, e2, e3]
  exact sqK_real Xr Vr Er d

/-- The loss of the second way, over all points at once, is the loss of the first way, over the tiles. -/
theorem loss_eq :
    lossR (∑ b : Fin 65536, ∑ d : Fin 256, sqR (rowX X b) (rowV VAR b) (tab EMB) d)
      = lossK (∑ j : (⟨3, ![64, 8, 128]⟩ : Shape).Idx, wholeTiles X VAR EMB j) := by
  rw [sum_wholeTiles]
  choose s hs using sq_real X VAR EMB hX hV hE
  have e : (∑ b : Fin 65536, ∑ d : Fin 256, sqR (rowX X b) (rowV VAR b) (tab EMB) d)
      = ∑ b : Fin 65536, ∑ d : Fin 256, sqK (rowX X b) (rowV VAR b) (tab EMB) d :=
    Finset.sum_congr rfl fun b _ => Finset.sum_congr rfl fun d _ => sq_eq X VAR EMB hX hV hE b d
  have er : (∑ b : Fin 65536, ∑ d : Fin 256, sqK (rowX X b) (rowV VAR b) (tab EMB) d)
      = ((∑ b : Fin 65536, ∑ d : Fin 256, s b d : ℝ) : EReal) := by
    rw [← coe_sum]
    refine Finset.sum_congr rfl fun b _ => ?_
    rw [← coe_sum]
    exact Finset.sum_congr rfl fun d _ => hs b d
  rw [e, er]
  exact lossR_eq_lossK _

end SoftVQ

end
-- ==== Proof.lean ====
/-
  Soft vector quantisation, a tiled kernel against its plain reference, over the extended reals.

  Both programs take 65536 points of 256 coordinates, 1024 log-scale parameters per point and a codebook of 1024 entries, and
  return the soft quantisation of every point together with a scalar loss.  For a point x with parameters v the weight of
  codebook entry k is the Gaussian  exp (−½·|x − e_k|²·s_k) / √s_k  with precision  s_k = exp (−2·v_k);  the weights are
  normalised over k and the quantised point is the weighted mean of the entries.

  The reference computes exactly that, returns  x + (q − x)  for the quantised point q, and the loss as the mean of (q − x)²
  over all coordinates plus a quarter of the same mean.  The kernel works on blocks of 1024 points: it moves the division by
  √s_k into the exponent (the weight becomes exp (v_k − ½·|x − e_k|²·s_k), because √(exp (−2v)) = exp (−v)), subtracts the
  row's largest exponent before exponentiating (a common factor that cancels in the normalisation), returns q itself, and
  leaves one tile per block holding the block's total squared error at its corner; the program then sums the tiles,
  multiplies by 5/4 and divides by the number of coordinates, 2²⁴.  The kernel's narrowed operands are the operands themselves
  on extended reals, and its two matrix products and the reference's are the same sums.

  On finite inputs every intermediate value is a real number, the weights' sums are positive, and the laws above are laws of
  real numbers (x + (q − x) = q;  S/N + ¼·S/N = (5/4·S)/N); on infinite inputs they fail, so the precondition — every input
  entry finite — is used, through the rows of the arguments written as rows of reals.

  The parts: the specification of both ways of computing (Spec, Whole) and their agreement on real inputs (SpecLaws, TileSum,
  Bridge); one block of the kernel's body read entry by entry (KernelRow) and the masked tile (Finite, second part); the
  kernel's blocks assembled into its two result arrays and the operations after the region (KernelWhole); the reference read
  operation by operation down to the specification (RefSide); finiteness from the precondition (Finite, first part).  The
  three frames are the generated ones (the reference's is its run with the results dropped), and the kernel's idealization
  rewrote nothing.
-/
import proofs.«163527_j87041807220993_2_alg».proof.Defs
import proofs.«163527_j87041807220993_2_alg».proof.Proof.Gen.Kernel
import proofs.«163527_j87041807220993_2_alg».proof.Proof.Gen.Kernel.Skeleton
import proofs.«163527_j87041807220993_2_alg».proof.Proof.Gen.Kernel.Launch
import proofs.«163527_j87041807220993_2_alg».proof.Proof.Gen.Kernel.Points
import proofs.«163527_j87041807220993_2_alg».proof.Proof.Gen.Kernel.Frame
import proofs.«163527_j87041807220993_2_alg».proof.Proof.Gen.KernelIdeal
import proofs.«163527_j87041807220993_2_alg».proof.Proof.Gen.KernelIdeal.Skeleton
import proofs.«163527_j87041807220993_2_alg».proof.Proof.Gen.KernelIdeal.Launch
import proofs.«163527_j87041807220993_2_alg».proof.Proof.Gen.KernelIdeal.Points
import proofs.«163527_j87041807220993_2_alg».proof.Proof.Gen.KernelIdeal.Frame
import proofs.«163527_j87041807220993_2_alg».proof.Proof.Gen.ReferenceIdeal
import proofs.«163527_j87041807220993_2_alg».proof.Proof.Gen.Pre_finite_inputs
import proofs.«163527_j87041807220993_2_alg».proof.Proof.Gen.ReferenceIdeal.Run
import proofs.«163527_j87041807220993_2_alg».proof.Proof.Gen.ReferenceIdeal.Read
import proofs.«163527_j87041807220993_2_alg».proof.Proof.KernelWhole
import proofs.«163527_j87041807220993_2_alg».proof.Proof.RefSide
import proofs.«163527_j87041807220993_2_alg».proof.Proof.Bridge
import proofs.«163527_j87041807220993_2_alg».proof.Proof.Finite
import Idealize.ShloMosaic.Adequacy
import Idealize.ShloMosaic.Init

noncomputable section

open scoped BigOperators

namespace Cert.Proof

open Idealize.ShloMosaic Idealize.ShloMosaic.ValueIdx Idealize.SL.Sem

/-- The kernel, as printed, runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.RefValue.run_spec m ρ)

/-- On finite inputs the kernel and the reference end with the same quantised array and the same loss: the kernel's run
    leaves the first way of the specification, the reference's the second, and on rows of real numbers the two agree. -/
theorem algebraic : Cert.algebraic_KernelIdeal_ReferenceIdeal := by
  intro m ρ m' ρ' hpre hagree
  refine ⟨fun c => SoftVQ.wholeQuant (Cert.KernelIdeal.Whole.argX m c) (Cert.KernelIdeal.Whole.argV m c) (Cert.KernelIdeal.Whole.argE m c),
    fun c => fun _ => SoftVQ.lossK (∑ j : Cert.KernelIdeal.S64x8x128.Idx,
      SoftVQ.wholeTiles (Cert.KernelIdeal.Whole.argX m c) (Cert.KernelIdeal.Whole.argV m c) (Cert.KernelIdeal.Whole.argE m c) j), ?_, ?_⟩
  · refine (θ_run Cert.KernelIdeal.defs _ _).mono (fun r h c => ⟨(h c).1, ?_, (h c).2.2⟩) (Cert.KernelIdeal.Whole.run m ρ)
    funext i
    obtain rfl : i = ix0 := funext fun a => a.elim0
    exact (h c).2.1
  · refine (θ_run Cert.ReferenceIdeal.defs _ _).mono (fun r h c => ?_) (Cert.ReferenceIdeal.RefValue.run_spec m' ρ')
    obtain ⟨hout, hloss, ha0, ha1, ha2⟩ := h c
    obtain ⟨g0, g1, g2⟩ := hagree c
    obtain ⟨hX, hV, hE⟩ := Cert.Finite.reals_of_pre _ _ _ (hpre c)
    refine ⟨?_, ?_, ha0, ha1, ha2⟩
    · funext i
      obtain ⟨b, d, rfl⟩ : ∃ (b : Fin 65536) (d : Fin 256), i = ix2 b d := ⟨i 0, i 1, eq_ix2 i⟩
      refine (hout b d).trans ?_
      rw [g0, g1, g2]
      exact SoftVQ.through_eq _ _ _ hX hV hE b d
    · funext i
      obtain rfl : i = ix0 := funext fun a => a.elim0
      refine hloss.trans ?_
      rw [g0, g1, g2]
      exact SoftVQ.loss_eq _ _ _ hX hV hE

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
